-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S4000000 : Shape := ⟨1, ![4000000]⟩
abbrev S4096 : Shape := ⟨1, ![4096]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S100000x64 .f32) (main_arg1 : FVec F S50000x64 .f32) (main_arg2 : FVec F S4000000 .f32) (main_arg3 : IVec S4000000 32) (main_arg4 : IVec S4000000 32) (main_arg5 : IVec S4096 32) (main_arg6 : IVec S4096 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  main_v13
-- ==== Kernel.lean ====
abbrev S100000x64 : Shape := ⟨2, ![100000, 64]⟩
abbrev S50000x64 : Shape := ⟨2, ![50000, 64]⟩
abbrev S4000000 : Shape := ⟨1, ![4000000]⟩
abbrev S4096 : Shape := ⟨1, ![4096]⟩
abbrev S150000x64 : Shape := ⟨2, ![150000, 64]⟩
abbrev S4000000x1 : Shape := ⟨2, ![4000000, 1]⟩
abbrev S_ : Shape := ⟨0, ![]⟩
abbrev S4000000x64 : Shape := ⟨2, ![4000000, 64]⟩
abbrev S8000x1 : Shape := ⟨2, ![8000, 1]⟩
abbrev S8000x64 : Shape := ⟨2, ![8000, 64]⟩
abbrev S5000x64 : Shape := ⟨2, ![5000, 64]⟩
abbrev S4096x1 : Shape := ⟨2, ![4096, 1]⟩
abbrev S4096x64 : Shape := ⟨2, ![4096, 64]⟩
abbrev S1024x64 : Shape := ⟨2, ![1024, 64]⟩
abbrev S1024 : Shape := ⟨1, ![1024]⟩

abbrev nBuf : Space → Nat
  | .hbm => 73
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .f32⟩
  | .hbm, ⟨3, _⟩ => ⟨S4000000, .i32⟩
  | .hbm, ⟨4, _⟩ => ⟨S4000000, .i32⟩
  | .hbm, ⟨5, _⟩ => ⟨S4096, .i32⟩
  | .hbm, ⟨6, _⟩ => ⟨S4096, .i32⟩
  | .hbm, ⟨7, _⟩ => ⟨S150000x64, .f32⟩
  | .hbm, ⟨8, _⟩ => ⟨S4000000x1, .f32⟩
  | .hbm, ⟨9, _⟩ => ⟨S_, .i32⟩
  | .hbm, ⟨10, _⟩ => ⟨S4000000, .i32⟩
  | .hbm, ⟨11, _⟩ => ⟨S4000000, .i1⟩
  | .hbm, ⟨12, _⟩ => ⟨S_, .i32⟩
  | .hbm, ⟨13, _⟩ => ⟨S4000000, .i32⟩
  | .hbm, ⟨14, _⟩ => ⟨S4000000, .i32⟩
  | .hbm, ⟨15, _⟩ => ⟨S4000000, .i32⟩
  | .hbm, ⟨16, _⟩ => ⟨S4000000x1, .i32⟩
  | .hbm, ⟨17, _⟩ => ⟨S4000000x64, .f32⟩
  | .hbm, ⟨18, _⟩ => ⟨S4000000x64, .f32⟩
  | .hbm, ⟨19, _⟩ => ⟨S_, .f32⟩
  | .hbm, ⟨20, _⟩ => ⟨S150000x64, .f32⟩
  | .hbm, ⟨21, _⟩ => ⟨S4000000x1, .i32⟩
  | .hbm, ⟨22, _⟩ => ⟨S150000x64, .f32⟩
  | .hbm, ⟨23, _⟩ => ⟨S_, .i32⟩
  | .hbm, ⟨24, _⟩ => ⟨S4000000, .i32⟩
  | .hbm, ⟨25, _⟩ => ⟨S4000000, .i1⟩
  | .hbm, ⟨26, _⟩ => ⟨S_, .i32⟩
  | .hbm, ⟨27, _⟩ => ⟨S4000000, .i32⟩
  | .hbm, ⟨28, _⟩ => ⟨S4000000, .i32⟩
  | .hbm, ⟨29, _⟩ => ⟨S4000000, .i32⟩
  | .hbm, ⟨30, _⟩ => ⟨S4000000x1, .i32⟩
  | .hbm, ⟨31, _⟩ => ⟨S4000000x64, .f32⟩
  | .hbm, ⟨32, _⟩ => ⟨S4000000x64, .f32⟩
  | .hbm, ⟨33, _⟩ => ⟨S_, .f32⟩
  | .hbm, ⟨34, _⟩ => ⟨S150000x64, .f32⟩
  | .hbm, ⟨35, _⟩ => ⟨S4000000x1, .i32⟩
  | .hbm, ⟨36, _⟩ => ⟨S150000x64, .f32⟩
  | .hbm, ⟨37, _⟩ => ⟨S_, .i32⟩
  | .hbm, ⟨38, _⟩ => ⟨S4000000, .i32⟩
  | .hbm, ⟨39, _⟩ => ⟨S4000000, .i1⟩
  | .hbm, ⟨40, _⟩ => ⟨S_, .i32⟩
  | .hbm, ⟨41, _⟩ => ⟨S4000000, .i32⟩
  | .hbm, ⟨42, _⟩ => ⟨S4000000, .i32⟩
  | .hbm, ⟨43, _⟩ => ⟨S4000000, .i32⟩
  | .hbm, ⟨44, _⟩ => ⟨S4000000x1, .i32⟩
  | .hbm, ⟨45, _⟩ => ⟨S4000000x64, .f32⟩
  | .hbm, ⟨46, _⟩ => ⟨S4000000x64, .f32⟩
  | .hbm, ⟨47, _⟩ => ⟨S_, .f32⟩
  | .hbm, ⟨48, _⟩ => ⟨S150000x64, .f32⟩
  | .hbm, ⟨49, _⟩ => ⟨S4000000x1, .i32⟩
  | .hbm, ⟨50, _⟩ => ⟨S150000x64, .f32⟩
  | .hbm, ⟨51, _⟩ => ⟨S150000x64, .f32⟩
  | .hbm, ⟨52, _⟩ => ⟨S100000x64, .f32⟩
  | .hbm, ⟨53, _⟩ => ⟨S50000x64, .f32⟩
  | .hbm, ⟨54, _⟩ => ⟨S_, .i32⟩
  | .hbm, ⟨55, _⟩ => ⟨S4096, .i32⟩
  | .hbm, ⟨56, _⟩ => ⟨S4096, .i1⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S4096, .i32⟩
  | .hbm, ⟨61, _⟩ => ⟨S4096x1, .i32⟩
  | .hbm, ⟨62, _⟩ => ⟨S4096x64, .f32⟩
  | .hbm, ⟨63, _⟩ => ⟨S_, .i32⟩
  | .hbm, ⟨64, _⟩ => ⟨S4096, .i32⟩
  | .hbm, ⟨65, _⟩ => ⟨S4096, .i1⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S4096, .i32⟩
  | .hbm, ⟨70, _⟩ => ⟨S4096x1, .i32⟩
  | .hbm, ⟨71, _⟩ => ⟨S4096x64, .f32⟩
  | .hbm, ⟨72, _⟩ => ⟨S4096, .f32⟩
  | .local _ .vmem, ⟨0, _⟩ => ⟨S8000x1, .f32⟩
  | .local _ .vmem, ⟨1, _⟩ => ⟨S8000x1, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S8000x1, .f32⟩
  | .local _ .vmem, ⟨7, _⟩ => ⟨S8000x1, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S8000x64, .f32⟩
  | .local _ .vmem, ⟨12, _⟩ => ⟨S8000x1, .f32⟩
  | .local _ .vmem, ⟨13, _⟩ => ⟨S8000x1, .f32⟩
  | .local _ .vmem, ⟨14, _⟩ => ⟨S8000x64, .f32⟩
  | .local _ .vmem, ⟨15, _⟩ => ⟨S8000x64, .f32⟩
  | .local _ .vmem, ⟨16, _⟩ => ⟨S8000x64, .f32⟩
  | .local _ .vmem, ⟨17, _⟩ => ⟨S8000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S1024x64, .f32⟩
  | .local _ .vmem, ⟨29, _⟩ => ⟨S1024x64, .f32⟩
  | .local _ .vmem, ⟨30, _⟩ => ⟨S1024x64, .f32⟩
  | .local _ .vmem, ⟨31, _⟩ => ⟨S1024x64, .f32⟩
  | .local _ .vmem, ⟨32, _⟩ => ⟨S1024, .f32⟩
  | .local _ .vmem, ⟨33, _⟩ => ⟨S1024, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_7 : Ref sig .tc := ⟨.hbm, 54, rfl⟩
abbrev main_v38 : Ref sig .tc := ⟨.hbm, 55, rfl⟩
abbrev main_v39 : Ref sig .tc := ⟨.hbm, 56, rfl⟩
abbrev main_c_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_v46 : Ref sig .tc := ⟨.hbm, 65, rfl⟩
abbrev main_c_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![500], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  ![arg0.toNat]

abbrev stage4_0 : Fin 2 → Memref sig .tc .vmem S1024x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  concatenates_S100000x64_S50000x64_S150000x64_d0 : Shape.Concatenates [S100000x64, S50000x64] S150000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  broadcasts_S8000x1_S8000x64 : S8000x1.Broadcasts S8000x64
  bcast_S_S150000x64 : S_.BroadcastsInDim S150000x64 (![] : Fin 0 → Fin S150000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  inb_S1024_S1024_0 : ∀ a, (![0] : Fin 1 → Nat) a + S1024.size a ≤ S1024.size a
  h_S1024 : 0 < S1024.numel
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S4000000x1.size a
  hwx0_0 : ∀ i : grid0.Coords, EltTy.bits .f32 = 32 ∨ (Rect.block (s := S4000000x1) S8000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S4000000x64.size a
  hwx0_1 : ∀ i : grid0.Coords, EltTy.bits .f32 = 32 ∨ (Rect.block (s := S4000000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S4000000x64.size a
  hwx0_2 : ∀ i : grid0.Coords, EltTy.bits .f32 = 32 ∨ (Rect.block (s := S4000000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x1.size a ≤ S4000000x1.size a
  hwx1_0 : ∀ i : grid1.Coords, EltTy.bits .f32 = 32 ∨ (Rect.block (s := S4000000x1) S8000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S4000000x64.size a
  hwx1_1 : ∀ i : grid1.Coords, EltTy.bits .f32 = 32 ∨ (Rect.block (s := S4000000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S4000000x64.size a
  hwx1_2 : ∀ i : grid1.Coords, EltTy.bits .f32 = 32 ∨ (Rect.block (s := S4000000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x1.size a ≤ S4000000x1.size a
  hwx2_0 : ∀ i : grid2.Coords, EltTy.bits .f32 = 32 ∨ (Rect.block (s := S4000000x1) S8000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S4000000x64.size a
  hwx2_1 : ∀ i : grid2.Coords, EltTy.bits .f32 = 32 ∨ (Rect.block (s := S4000000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S4000000x64.size a
  hwx2_2 : ∀ i : grid2.Coords, EltTy.bits .f32 = 32 ∨ (Rect.block (s := S4000000x64) S8000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S150000x64.size a
  hwx3_0 : ∀ i : grid3.Coords, EltTy.bits .f32 = 32 ∨ (Rect.block (s := S150000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S150000x64.size a
  hwx3_1 : ∀ i : grid3.Coords, EltTy.bits .f32 = 32 ∨ (Rect.block (s := S150000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S150000x64.size a
  hwx3_2 : ∀ i : grid3.Coords, EltTy.bits .f32 = 32 ∨ (Rect.block (s := S150000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S150000x64.size a
  hwx3_3 : ∀ i : grid3.Coords, EltTy.bits .f32 = 32 ∨ (Rect.block (s := S150000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S150000x64.size a
  hwx3_4 : ∀ i : grid3.Coords, EltTy.bits .f32 = 32 ∨ (Rect.block (s := S150000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x64.size a ≤ S4096x64.size a
  hwx4_0 : ∀ i : grid4.Coords, EltTy.bits .f32 = 32 ∨ (Rect.block (s := S4096x64) S1024x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x64.size a ≤ S4096x64.size a
  hwx4_1 : ∀ i : grid4.Coords, EltTy.bits .f32 = 32 ∨ (Rect.block (s := S4096x64) S1024x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024.size a ≤ S4096.size a
  hwx4_2 : ∀ i : grid4.Coords, EltTy.bits .f32 = 32 ∨ (Rect.block (s := S4096) S1024.size (cc4_transform_2 i) (hinb4_2 i)).WholeWords (EltTy.packing .f32)

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

abbrev win0_0 : Pipeline.Window sig grid0 :=
  Pipeline.Window.ofSpec (Memref.whole main_v1) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S8000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S8000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S8000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v34) S5000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v35) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v44) S1024x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S1024x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v52) S1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S4000000 : Shape := ⟨1, ![4000000]⟩
abbrev S4096 : Shape := ⟨1, ![4096]⟩
abbrev S150000x64 : Shape := ⟨2, ![150000, 64]⟩
abbrev S4000000x1 : Shape := ⟨2, ![4000000, 1]⟩
abbrev S_ : Shape := ⟨0, ![]⟩
abbrev S4000000x64 : Shape := ⟨2, ![4000000, 64]⟩
abbrev S4096x1 : Shape := ⟨2, ![4096, 1]⟩
abbrev S4096x64 : Shape := ⟨2, ![4096, 64]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .f32⟩
  | .hbm, ⟨3, _⟩ => ⟨S4000000, .i32⟩
  | .hbm, ⟨4, _⟩ => ⟨S4000000, .i32⟩
  | .hbm, ⟨5, _⟩ => ⟨S4096, .i32⟩
  | .hbm, ⟨6, _⟩ => ⟨S4096, .i32⟩
  | .hbm, ⟨7, _⟩ => ⟨S150000x64, .f32⟩
  | .hbm, ⟨8, _⟩ => ⟨S4000000x1, .f32⟩
  | .hbm, ⟨9, _⟩ => ⟨S_, .i32⟩
  | .hbm, ⟨10, _⟩ => ⟨S4000000, .i32⟩
  | .hbm, ⟨11, _⟩ => ⟨S4000000, .i1⟩
  | .hbm, ⟨12, _⟩ => ⟨S_, .i32⟩
  | .hbm, ⟨13, _⟩ => ⟨S4000000, .i32⟩
  | .hbm, ⟨14, _⟩ => ⟨S4000000, .i32⟩
  | .hbm, ⟨15, _⟩ => ⟨S4000000, .i32⟩
  | .hbm, ⟨16, _⟩ => ⟨S4000000x1, .i32⟩
  | .hbm, ⟨17, _⟩ => ⟨S4000000x64, .f32⟩
  | .hbm, ⟨18, _⟩ => ⟨S4000000x64, .f32⟩
  | .hbm, ⟨19, _⟩ => ⟨S4000000x64, .f32⟩
  | .hbm, ⟨20, _⟩ => ⟨S_, .f32⟩
  | .hbm, ⟨21, _⟩ => ⟨S150000x64, .f32⟩
  | .hbm, ⟨22, _⟩ => ⟨S4000000x1, .i32⟩
  | .hbm, ⟨23, _⟩ => ⟨S150000x64, .f32⟩
  | .hbm, ⟨24, _⟩ => ⟨S150000x64, .f32⟩
  | .hbm, ⟨25, _⟩ => ⟨S4000000x1, .f32⟩
  | .hbm, ⟨26, _⟩ => ⟨S_, .i32⟩
  | .hbm, ⟨27, _⟩ => ⟨S4000000, .i32⟩
  | .hbm, ⟨28, _⟩ => ⟨S4000000, .i1⟩
  | .hbm, ⟨29, _⟩ => ⟨S_, .i32⟩
  | .hbm, ⟨30, _⟩ => ⟨S4000000, .i32⟩
  | .hbm, ⟨31, _⟩ => ⟨S4000000, .i32⟩
  | .hbm, ⟨32, _⟩ => ⟨S4000000, .i32⟩
  | .hbm, ⟨33, _⟩ => ⟨S4000000x1, .i32⟩
  | .hbm, ⟨34, _⟩ => ⟨S4000000x64, .f32⟩
  | .hbm, ⟨35, _⟩ => ⟨S4000000x64, .f32⟩
  | .hbm, ⟨36, _⟩ => ⟨S4000000x64, .f32⟩
  | .hbm, ⟨37, _⟩ => ⟨S_, .f32⟩
  | .hbm, ⟨38, _⟩ => ⟨S150000x64, .f32⟩
  | .hbm, ⟨39, _⟩ => ⟨S4000000x1, .i32⟩
  | .hbm, ⟨40, _⟩ => ⟨S150000x64, .f32⟩
  | .hbm, ⟨41, _⟩ => ⟨S150000x64, .f32⟩
  | .hbm, ⟨42, _⟩ => ⟨S4000000x1, .f32⟩
  | .hbm, ⟨43, _⟩ => ⟨S_, .i32⟩
  | .hbm, ⟨44, _⟩ => ⟨S4000000, .i32⟩
  | .hbm, ⟨45, _⟩ => ⟨S4000000, .i1⟩
  | .hbm, ⟨46, _⟩ => ⟨S_, .i32⟩
  | .hbm, ⟨47, _⟩ => ⟨S4000000, .i32⟩
  | .hbm, ⟨48, _⟩ => ⟨S4000000, .i32⟩
  | .hbm, ⟨49, _⟩ => ⟨S4000000, .i32⟩
  | .hbm, ⟨50, _⟩ => ⟨S4000000x1, .i32⟩
  | .hbm, ⟨51, _⟩ => ⟨S4000000x64, .f32⟩
  | .hbm, ⟨52, _⟩ => ⟨S4000000x64, .f32⟩
  | .hbm, ⟨53, _⟩ => ⟨S4000000x64, .f32⟩
  | .hbm, ⟨54, _⟩ => ⟨S_, .f32⟩
  | .hbm, ⟨55, _⟩ => ⟨S150000x64, .f32⟩
  | .hbm, ⟨56, _⟩ => ⟨S4000000x1, .i32⟩
  | .hbm, ⟨57, _⟩ => ⟨S150000x64, .f32⟩
  | .hbm, ⟨58, _⟩ => ⟨S150000x64, .f32⟩
  | .hbm, ⟨59, _⟩ => ⟨S_, .f32⟩
  | .hbm, ⟨60, _⟩ => ⟨S150000x64, .f32⟩
  | .hbm, ⟨61, _⟩ => ⟨S150000x64, .f32⟩
  | .hbm, ⟨62, _⟩ => ⟨S100000x64, .f32⟩
  | .hbm, ⟨63, _⟩ => ⟨S50000x64, .f32⟩
  | .hbm, ⟨64, _⟩ => ⟨S_, .i32⟩
  | .hbm, ⟨65, _⟩ => ⟨S4096, .i32⟩
  | .hbm, ⟨66, _⟩ => ⟨S4096, .i1⟩
  | .hbm, ⟨67, _⟩ => ⟨S_, .i32⟩
  | .hbm, ⟨68, _⟩ => ⟨S4096, .i32⟩
  | .hbm, ⟨69, _⟩ => ⟨S4096, .i32⟩
  | .hbm, ⟨70, _⟩ => ⟨S4096, .i32⟩
  | .hbm, ⟨71, _⟩ => ⟨S4096x1, .i32⟩
  | .hbm, ⟨72, _⟩ => ⟨S4096x64, .f32⟩
  | .hbm, ⟨73, _⟩ => ⟨S_, .i32⟩
  | .hbm, ⟨74, _⟩ => ⟨S4096, .i32⟩
  | .hbm, ⟨75, _⟩ => ⟨S4096, .i1⟩
  | .hbm, ⟨76, _⟩ => ⟨S_, .i32⟩
  | .hbm, ⟨77, _⟩ => ⟨S4096, .i32⟩
  | .hbm, ⟨78, _⟩ => ⟨S4096, .i32⟩
  | .hbm, ⟨79, _⟩ => ⟨S4096, .i32⟩
  | .hbm, ⟨80, _⟩ => ⟨S4096x1, .i32⟩
  | .hbm, ⟨81, _⟩ => ⟨S4096x64, .f32⟩
  | .hbm, ⟨82, _⟩ => ⟨S4096x64, .f32⟩
  | .hbm, ⟨83, _⟩ => ⟨S_, .f32⟩
  | .hbm, ⟨84, _⟩ => ⟨S4096, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_v54 : Ref sig .tc := ⟨.hbm, 74, rfl⟩
abbrev main_v55 : Ref sig .tc := ⟨.hbm, 75, rfl⟩
abbrev main_c_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

class Facts : Prop extends Facts₀ where

variable [Facts]
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row (the accumulator is the additive neutral word, so nothing is added
  in front); the host's one-operand `reduce` with an add body over the same axis is its initial value plus that sum.
-/
import Idealize.ShloMosaic.PureOps.Ideal.Laws
import Idealize.ShloMosaic.Lib.ValueIdx
import proofs.«145525_j73821897883700_2_alg».proof.Proof.LibRowMax

noncomputable section

namespace Cert.Lib

open Idealize.ShloMosaic Idealize.ShloMosaic.ValueIdx
open scoped BigOperators

variable {R K : ℕ}

/-- A float sum over the second axis of an `[R, K]` array, at row `p`: the sum over that row. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  exact Finset.sum_congr rfl fun k _ => congrArg src (lift_lastAxis2 h p k)

/-- The host's float sum over the second axis of an `[R, K]` array, at row `p`: the initial value plus the sum over that row. -/
theorem hostReduceAdd_rows {φ : FTy} {u : Shape} (x : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (p : Fin R) :
    Host.reduceAdd x init h' hu (ix1 p) = init (Shape.Idx.first hu) + ∑ k : Fin K, x (ix2 p k) := by
  unfold Host.reduceAdd
  rw [Ideal.hostReduceAdd_def, Ideal.hostReduceAdd_single h' h]
  exact congrArg (_ + ·) (Finset.sum_congr rfl fun k _ => congrArg x (lift_lastAxis2 h p k))

end Cert.Lib

end
-- ==== Proof.Spec.lean ====
/-
  The three array functions the regions of the kernel compute, on the extended reals, and the host's spelling of each.

  * `scaled w g`: row `e` of `g` (one row per edge, 64 entries) multiplied by the edge's weight `w (e, 0)`.
    The host spells it as the weight column broadcast along the row axis, times `g`.
  * `pooled l0 l1 l2 l3`: the mean of four layers, `((l0 + l1) + l2) + l3` times the float word `0x3E800000`, which is 1/4.
    The host divides the same sum by the float word `0x40800000`, which is 4: on every extended real, the infinities
    included, dividing by the real 4 is multiplying by the real 1/4, so no entry has to be finite.
  * `dots u v`: for each of the 4096 rows the sum over the 64 columns of `u (b, k) * v (b, k)`.
    The host multiplies pointwise and sums each row from the zero word, which adds 0 in front.
-/
import Idealize.ShloMosaic.PureOps.Ideal
import Idealize.ShloMosaic.PureOps.Ideal.Laws
import Idealize.ShloMosaic.Lib.ValueIdx
import Idealize.ShloMosaic.Lib.Pipeline.Value
import proofs.«145525_j73821897883700_2_alg».proof.Proof.LibRowSum

noncomputable section

namespace Cert.Spec

open Idealize.ShloMosaic Idealize.ShloMosaic.ValueIdx
open scoped BigOperators

/-- One weight per edge, as a column. -/
abbrev SE1 : Shape := ⟨2, ![4000000, 1]⟩
/-- One row of 64 entries per edge. -/
abbrev SED : Shape := ⟨2, ![4000000, 64]⟩
/-- One row of 64 entries per node. -/
abbrev SND : Shape := ⟨2, ![150000, 64]⟩
/-- One row of 64 entries per batch element. -/
abbrev SBD : Shape := ⟨2, ![4096, 64]⟩
/-- One entry per batch element. -/
abbrev SB : Shape := ⟨1, ![4096]⟩
/-- A scalar. -/
abbrev S0 : Shape := ⟨0, ![]⟩

/-! ## The edge messages -/

/-- Every edge's row times the edge's weight. -/
def scaled (w : SE1.Idx → EReal) (g : SED.Idx → EReal) : SED.Idx → EReal :=
  fun i => w (ix2 (⟨(i 0).val, (i 0).isLt⟩ : Fin 4000000) (0 : Fin 1)) * g i

theorem scaled_apply (w : SE1.Idx → EReal) (g : SED.Idx → EReal) (p : Fin 4000000) (q : Fin 64) :
    scaled w g (ix2 p q) = w (ix2 p (0 : Fin 1)) * g (ix2 p q) := rfl

/-- The host's spelling: the weight column broadcast over the 64 columns, times the rows. -/
theorem scaled_eq_host (h : SE1.BroadcastsInDim SED (![0, 1] : Fin 2 → Fin SED.rank)) (w : SE1.Idx → EReal) (g : SED.Idx → EReal) :
    mulf (F := Ideal) (φ := .f32) (broadcastInDim SED ![0, 1] h w) g = scaled w g := by
  funext i
  obtain ⟨p, q, rfl⟩ : ∃ (p : Fin 4000000) (q : Fin 64), i = ix2 p q := ⟨i 0, i 1, eq_ix2 i⟩
  rw [scaled_apply, mulf_apply]
  refine congrArg (· * g (ix2 p q)) ?_
  exact broadcastInDim_apply _ h w (ix2 p q) (ix2 p (0 : Fin 1)) (fun a => match a with
    | ⟨0, _⟩ => by show p.val = if (4000000 : Nat) = 1 then 0 else p.val; rw [if_neg (by decide)]
    | ⟨1, _⟩ => by show 0 = if (1 : Nat) = 1 then 0 else q.val; rw [if_pos rfl])

/-! ## The mean over the layers -/

/-- The float word of `0.25` is the real 1/4. -/
theorem quarter_word : Ideal.ofBits .f32 0x3E800000#32 = ((1 / 4 : ℝ) : EReal) := by
  simp [Ideal.ofBits, Ideal.ieee, -EReal.coe_mul]; norm_num

/-- The float word of `4.0` is the real 4. -/
theorem four_word : Ideal.ofBits .f32 0x40800000#32 = ((4 : ℝ) : EReal) := by
  simp [Ideal.ofBits, Ideal.ieee, -EReal.coe_mul]; norm_num

/-- The four layers summed from the left and multiplied by the word of `0.25`. -/
def pooled (l0 l1 l2 l3 : SND.Idx → EReal) : SND.Idx → EReal :=
  fun i => (((l0 i + l1 i) + l2 i) + l3 i) * Ideal.ofBits .f32 0x3E800000#32

/-- The host's spelling: the same sum divided by the word of `4.0`, a scalar broadcast over the array. -/
theorem pooled_eq_host (hb : S0.BroadcastsInDim SND (![] : Fin 0 → Fin SND.rank)) (l0 l1 l2 l3 : SND.Idx → EReal) :
    Host.divf (F := Ideal) (φ := .f32) (addf (addf (addf l0 l1) l2) l3)
        (broadcastInDim SND ![] hb (constant (F := Ideal) S0 .f32 0x40800000#32)) = pooled l0 l1 l2 l3 := by
  funext i
  have hc : broadcastInDim SND ![] hb (constant (F := Ideal) S0 .f32 0x40800000#32) i = Ideal.ofBits .f32 0x40800000#32 :=
    broadcastInDim_apply _ hb _ i ix0 (fun a => a.elim0)
  show Ideal.div (((l0 i + l1 i) + l2 i) + l3 i) (broadcastInDim SND ![] hb (constant (F := Ideal) S0 .f32 0x40800000#32) i) = _
  rw [hc, four_word, Ideal.div_coe (by norm_num : (4 : ℝ) ≠ 0)]
  unfold pooled
  rw [quarter_word]

/-! ## The row-wise inner products -/

/-- For each batch element the sum over the 64 columns of the products. -/
def dots (u v : SBD.Idx → EReal) : SB.Idx → EReal :=
  fun b => ∑ k : Fin 64, u (ix2 (⟨(b 0).val, (b 0).isLt⟩ : Fin 4096) k) * v (ix2 (⟨(b 0).val, (b 0).isLt⟩ : Fin 4096) k)

theorem dots_apply (u v : SBD.Idx → EReal) (p : Fin 4096) :
    dots u v (ix1 p) = ∑ k : Fin 64, u (ix2 p k) * v (ix2 p k) := rfl

/-- The host's spelling: the pointwise product summed along each row from the zero word. -/
theorem dots_eq_host (h' : SBD.ReducesTo [1] SB) (hu : 0 < S0.numel) (u v : SBD.Idx → EReal) :
    Host.reduceAdd (F := Ideal) (φ := .f32) (mulf (F := Ideal) (φ := .f32) u v) (constant (F := Ideal) S0 .f32 0x00000000#32) h' hu = dots u v := by
  funext b
  obtain ⟨p, rfl⟩ : ∃ p : Fin 4096, b = ix1 p := ⟨b 0, eq_ix1 b⟩
  rw [dots_apply, Cert.Lib.hostReduceAdd_rows (mulf (F := Ideal) (φ := .f32) u v) _ h' (by decide) hu p]
  show Ideal.ofBits .f32 0x00000000#32 + ∑ k : Fin 64, u (ix2 p k) * v (ix2 p k) = _
  rw [Ideal.ofBits_zero_f32, zero_add]

end Cert.Spec

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Scale0.lean ====
/-
  What scale region 0 leaves in its output array: every edge's gathered row times the edge's weight.

  The region runs over 500 grid points. Point `t` stages rows `8000 t … 8000 t + 7999` of the weight column and of the
  gathered rows, multiplies each row by its weight, and writes the 8000 products back to the same rows of the output. So
  what point `t` writes back is block `t` of ONE array function, `scaled` of the two input arrays as the region finds them,
  and since the 500 blocks tile the 4,000,000 rows the output array ends holding that function everywhere.
  Stated at any contents `V` of the buffers at the region's entry.
-/
import proofs.«145525_j73821897883700_2_alg».proof.Proof.FrameKI
import proofs.«145525_j73821897883700_2_alg».proof.Proof.Spec
import proofs.«145525_j73821897883700_2_alg».proof.Proof.LibColumn

set_option maxRecDepth 16384

noncomputable section

namespace Cert.KernelIdeal.Scale0

open Cert.KernelIdeal Cert.KernelIdeal.Gen Cert.KernelIdeal.GenP Cert.Spec
open Idealize.ShloMosaic Idealize.ShloMosaic.TcCoe Idealize.ShloMosaic.ValueIdx Idealize.SL.Sem
open Idealize.ShloMosaic.Pipeline (Dat)

theorem origin2 : (![0, 0] : Fin 2 → Nat) = fun _ => 0 := funext fun a => by fin_cases a <;> rfl

/-- The body's product at row `p`, column `q` of the block: the block's weight `(p, 0)` times the block's entry `(p, q)`. -/
theorem product_apply (x0 : Vec Ideal S8000x1 .f32) (x1 : Vec Ideal S8000x64 .f32) (p : Fin 8000) (q : Fin 64) :
    k0_pay1 (F := Ideal) x0 x1 (ix2 p q) = x0 (ix2 p (0 : Fin 1)) * x1 (ix2 p q) := by
  unfold k0_pay1
  rw [mulf_apply, shapeCast_self, shapeCast_self]
  exact congrArg (· * x1 (ix2 p q)) (Cert.Lib.broadcastTo_a1_ab_apply x0 broadcasts_S8000x1_S8000x64 p q)

/-- The printed index maps over the grid: every window's block index at point `t` is `(t, 0)`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- At point `t`, row `p`, column `q`: the weight and the entry the body multiplies are the weight of row `8000 t + p` and
    the entry `(8000 t + p, q)` — where the output block's entry `(p, q)` lies —, for any two arrays. -/
theorem point_eq (A1 : S4000000x1.Idx → EReal) (A2 : S4000000x64.Idx → EReal) (t : Fin cfg0.N) (p : Fin 8000) (q : Fin 64) :
    A1 (((cfg0.win 0).blk t).view.emb (ix2 p (0 : Fin 1))) * A2 (((cfg0.win 1).blk t).view.emb (ix2 p q))
      = scaled A1 A2 (((cfg0.win 2).blk t).view.emb (ix2 p q)) := by
  obtain ⟨e00, e01, e10, e11, e20, e21⟩ := block_index t
  have ht : t.val < 500 := lt_of_lt_of_eq t.isLt N_0
  have hp : p.val < 8000 := p.isLt
  have h0 : ((cfg0.win 0).blk t).view.emb (ix2 p (0 : Fin 1)) = ix2 (⟨t.val * 8000 + p.val, by omega⟩ : Fin 4000000) (0 : Fin 1) := by
    funext a; apply Fin.ext
    match a with
    | ⟨0, _⟩ => show win0_0.index t (0 : Fin 2) * 8000 + 1 * p.val = t.val * 8000 + p.val; omega
    | ⟨1, _⟩ => show win0_0.index t (1 : Fin 2) * 1 + 1 * 0 = 0; omega
  have h1 : ((cfg0.win 1).blk t).view.emb (ix2 p q) = ix2 (⟨t.val * 8000 + p.val, by omega⟩ : Fin 4000000) q := by
    funext a; apply Fin.ext
    match a with
    | ⟨0, _⟩ => show win0_1.index t (0 : Fin 2) * 8000 + 1 * p.val = t.val * 8000 + p.val; omega
    | ⟨1, _⟩ => show win0_1.index t (1 : Fin 2) * 64 + 1 * q.val = q.val; omega
  have h2 : ((cfg0.win 2).blk t).view.emb (ix2 p q) = ix2 (⟨t.val * 8000 + p.val, by omega⟩ : Fin 4000000) q := by
    funext a; apply Fin.ext
    match a with
    | ⟨0, _⟩ => show win0_2.index t (0 : Fin 2) * 8000 + 1 * p.val = t.val * 8000 + p.val; omega
    | ⟨1, _⟩ => show win0_2.index t (1 : Fin 2) * 64 + 1 * q.val = q.val; omega
  rw [h0, h1, h2, scaled_apply]

variable (V : (c : Dev nD) → (b : Ref sig .tc) → Buf (Elt Ideal) ((c : Thread nD τ).loc b))

/-- What point `t` writes back is block `t` of `scaled` of the weight column and the gathered rows. -/
theorem written_back (c : Dev nD) (t : Fin cfg0.N) :
    (dat0 V c).flushed 2 t = ((cfg0.win 2).blk t).view.read (Elt Ideal) (scaled (V c main_v1) (V c main_v8)) := by
  show (cfg0.win 2).cut (grid0.coords t) ((dat0 V c).after 2 t) = _
  rw [after0_2]
  unfold out0_2
  rw [View.canon_unit_zero origin2]
  simp only [View.ld_unit_zero (S := S8000x1) origin2, View.ld_unit_zero (S := S8000x64) origin2]
  funext j
  obtain ⟨p, q, rfl⟩ : ∃ (p : Fin 8000) (q : Fin 64), j = ix2 p q := ⟨j 0, j 1, eq_ix2 j⟩
  refine (product_apply (iblk0 V c 0 t) (iblk0 V c 1 t) p q).trans ?_
  exact point_eq (V c main_v1) (V c main_v8) t p q

/-- An index of the output array is in point `t`'s block iff each coordinate is in the block's range on its axis. -/
theorem mem_block (t : Fin cfg0.N) (i : S4000000x64.Idx) :
    i ∈ ((cfg0.win 2).blk t).view.set ↔ ∀ a : Fin 2, win0_2.index t a * S8000x64.size a ≤ (i a).val ∧ (i a).val < win0_2.index t a * S8000x64.size a + S8000x64.size a := by
  show i ∈ ((View.whole main_v9).slice (win0_2.rect t)).set ↔ _
  rw [View.set_slice_whole, Rect.mem_set_unit]
  exact Iff.rfl

/-- Row `r` of the output lies in the block of point `r / 8000`: the 500 blocks tile the array. -/
theorem tiled (i : S4000000x64.Idx) :
    ∃ t : Fin cfg0.N, (cfg0.win 2).flush t = true ∧ i ∈ ((cfg0.win 2).blk t).view.set := by
  have hi0 : (i 0).val < 4000000 := (i 0).isLt
  have hi1 : (i 1).val < 64 := (i 1).isLt
  have hN : cfg0.N = 500 := N_0
  obtain ⟨t, htv⟩ : ∃ t : Fin cfg0.N, t.val = (i 0).val / 8000 := ⟨⟨(i 0).val / 8000, by rw [hN]; omega⟩, rfl⟩
  obtain ⟨-, -, -, -, e20, e21⟩ := block_index t
  refine ⟨t, flush0_2 t, ?_⟩
  rw [mem_block]
  intro a
  match a with
  | ⟨0, _⟩ => show win0_2.index t (0 : Fin 2) * 8000 ≤ (i 0).val ∧ (i 0).val < win0_2.index t (0 : Fin 2) * 8000 + 8000; omega
  | ⟨1, _⟩ => show win0_2.index t (1 : Fin 2) * 64 ≤ (i 1).val ∧ (i 1).val < win0_2.index t (1 : Fin 2) * 64 + 64; omega

/-- The output array after the region: every edge's gathered row times the edge's weight. -/
theorem value (c : Dev nD) : (dat0 V c).arrAt 2 cfg0.N = scaled (V c main_v1) (V c main_v8) :=
  (dat0 V c).arrAt_eq_of_cover 2 _ (fun t _ => written_back V c t) tiled

end Cert.KernelIdeal.Scale0

end
-- ==== Proof.Scale1.lean ====
/-
  What scale region 1 leaves in its output array: every edge's gathered row times the edge's weight.

  The region runs over 500 grid points. Point `t` stages rows `8000 t … 8000 t + 7999` of the weight column and of the
  gathered rows, multiplies each row by its weight, and writes the 8000 products back to the same rows of the output. So
  what point `t` writes back is block `t` of ONE array function, `scaled` of the two input arrays as the region finds them,
  and since the 500 blocks tile the 4,000,000 rows the output array ends holding that function everywhere.
  Stated at any contents `V` of the buffers at the region's entry.
-/
import proofs.«145525_j73821897883700_2_alg».proof.Proof.FrameKI
import proofs.«145525_j73821897883700_2_alg».proof.Proof.Spec
import proofs.«145525_j73821897883700_2_alg».proof.Proof.LibColumn

set_option maxRecDepth 16384

noncomputable section

namespace Cert.KernelIdeal.Scale1

open Cert.KernelIdeal Cert.KernelIdeal.Gen Cert.KernelIdeal.GenP Cert.Spec
open Idealize.ShloMosaic Idealize.ShloMosaic.TcCoe Idealize.ShloMosaic.ValueIdx Idealize.SL.Sem
open Idealize.ShloMosaic.Pipeline (Dat)

theorem origin2 : (![0, 0] : Fin 2 → Nat) = fun _ => 0 := funext fun a => by fin_cases a <;> rfl

/-- The body's product at row `p`, column `q` of the block: the block's weight `(p, 0)` times the block's entry `(p, q)`. -/
theorem product_apply (x0 : Vec Ideal S8000x1 .f32) (x1 : Vec Ideal S8000x64 .f32) (p : Fin 8000) (q : Fin 64) :
    k1_pay1 (F := Ideal) x0 x1 (ix2 p q) = x0 (ix2 p (0 : Fin 1)) * x1 (ix2 p q) := by
  unfold k1_pay1
  rw [mulf_apply, shapeCast_self, shapeCast_self]
  exact congrArg (· * x1 (ix2 p q)) (Cert.Lib.broadcastTo_a1_ab_apply x0 broadcasts_S8000x1_S8000x64 p q)

/-- The printed index maps over the grid: every window's block index at point `t` is `(t, 0)`. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- At point `t`, row `p`, column `q`: the weight and the entry the body multiplies are the weight of row `8000 t + p` and
    the entry `(8000 t + p, q)` — where the output block's entry `(p, q)` lies —, for any two arrays. -/
theorem point_eq (A1 : S4000000x1.Idx → EReal) (A2 : S4000000x64.Idx → EReal) (t : Fin cfg1.N) (p : Fin 8000) (q : Fin 64) :
    A1 (((cfg1.win 0).blk t).view.emb (ix2 p (0 : Fin 1))) * A2 (((cfg1.win 1).blk t).view.emb (ix2 p q))
      = scaled A1 A2 (((cfg1.win 2).blk t).view.emb (ix2 p q)) := by
  obtain ⟨e00, e01, e10, e11, e20, e21⟩ := block_index t
  have ht : t.val < 500 := lt_of_lt_of_eq t.isLt N_1
  have hp : p.val < 8000 := p.isLt
  have h0 : ((cfg1.win 0).blk t).view.emb (ix2 p (0 : Fin 1)) = ix2 (⟨t.val * 8000 + p.val, by omega⟩ : Fin 4000000) (0 : Fin 1) := by
    funext a; apply Fin.ext
    match a with
    | ⟨0, _⟩ => show win1_0.index t (0 : Fin 2) * 8000 + 1 * p.val = t.val * 8000 + p.val; omega
    | ⟨1, _⟩ => show win1_0.index t (1 : Fin 2) * 1 + 1 * 0 = 0; omega
  have h1 : ((cfg1.win 1).blk t).view.emb (ix2 p q) = ix2 (⟨t.val * 8000 + p.val, by omega⟩ : Fin 4000000) q := by
    funext a; apply Fin.ext
    match a with
    | ⟨0, _⟩ => show win1_1.index t (0 : Fin 2) * 8000 + 1 * p.val = t.val * 8000 + p.val; omega
    | ⟨1, _⟩ => show win1_1.index t (1 : Fin 2) * 64 + 1 * q.val = q.val; omega
  have h2 : ((cfg1.win 2).blk t).view.emb (ix2 p q) = ix2 (⟨t.val * 8000 + p.val, by omega⟩ : Fin 4000000) q := by
    funext a; apply Fin.ext
    match a with
    | ⟨0, _⟩ => show win1_2.index t (0 : Fin 2) * 8000 + 1 * p.val = t.val * 8000 + p.val; omega
    | ⟨1, _⟩ => show win1_2.index t (1 : Fin 2) * 64 + 1 * q.val = q.val; omega
  rw [h0, h1, h2, scaled_apply]

variable (V : (c : Dev nD) → (b : Ref sig .tc) → Buf (Elt Ideal) ((c : Thread nD τ).loc b))

/-- What point `t` writes back is block `t` of `scaled` of the weight column and the gathered rows. -/
theorem written_back (c : Dev nD) (t : Fin cfg1.N) :
    (dat1 V c).flushed 2 t = ((cfg1.win 2).blk t).view.read (Elt Ideal) (scaled (V c main_v1) (V c main_v19)) := by
  show (cfg1.win 2).cut (grid1.coords t) ((dat1 V c).after 2 t) = _
  rw [after1_2]
  unfold out1_2
  rw [View.canon_unit_zero origin2]
  simp only [View.ld_unit_zero (S := S8000x1) origin2, View.ld_unit_zero (S := S8000x64) origin2]
  funext j
  obtain ⟨p, q, rfl⟩ : ∃ (p : Fin 8000) (q : Fin 64), j = ix2 p q := ⟨j 0, j 1, eq_ix2 j⟩
  refine (product_apply (iblk1 V c 0 t) (iblk1 V c 1 t) p q).trans ?_
  exact point_eq (V c main_v1) (V c main_v19) t p q

/-- An index of the output array is in point `t`'s block iff each coordinate is in the block's range on its axis. -/
theorem mem_block (t : Fin cfg1.N) (i : S4000000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v20).slice (win1_2.rect t)).set ↔ _
  rw [View.set_slice_whole, Rect.mem_set_unit]
  exact Iff.rfl

/-- Row `r` of the output lies in the block of point `r / 8000`: the 500 blocks tile the array. -/
theorem tiled (i : S4000000x64.Idx) :
    ∃ t : Fin cfg1.N, (cfg1.win 2).flush t = true ∧ i ∈ ((cfg1.win 2).blk t).view.set := by
  have hi0 : (i 0).val < 4000000 := (i 0).isLt
  have hi1 : (i 1).val < 64 := (i 1).isLt
  have hN : cfg1.N = 500 := N_1
  obtain ⟨t, htv⟩ : ∃ t : Fin cfg1.N, t.val = (i 0).val / 8000 := ⟨⟨(i 0).val / 8000, by rw [hN]; omega⟩, rfl⟩
  obtain ⟨-, -, -, -, e20, e21⟩ := block_index t
  refine ⟨t, flush1_2 t, ?_⟩
  rw [mem_block]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 64 ≤ (i 1).val ∧ (i 1).val < win1_2.index t (1 : Fin 2) * 64 + 64; omega

/-- The output array after the region: every edge's gathered row times the edge's weight. -/
theorem value (c : Dev nD) : (dat1 V c).arrAt 2 cfg1.N = scaled (V c main_v1) (V c main_v19) :=
  (dat1 V c).arrAt_eq_of_cover 2 _ (fun t _ => written_back V c t) tiled

end Cert.KernelIdeal.Scale1

end
-- ==== Proof.Scale2.lean ====
/-
  What scale region 2 leaves in its output array: every edge's gathered row times the edge's weight.

  The region runs over 500 grid points. Point `t` stages rows `8000 t … 8000 t + 7999` of the weight column and of the
  gathered rows, multiplies each row by its weight, and writes the 8000 products back to the same rows of the output. So
  what point `t` writes back is block `t` of ONE array function, `scaled` of the two input arrays as the region finds them,
  and since the 500 blocks tile the 4,000,000 rows the output array ends holding that function everywhere.
  Stated at any contents `V` of the buffers at the region's entry.
-/
import proofs.«145525_j73821897883700_2_alg».proof.Proof.FrameKI
import proofs.«145525_j73821897883700_2_alg».proof.Proof.Spec
import proofs.«145525_j73821897883700_2_alg».proof.Proof.LibColumn

set_option maxRecDepth 16384

noncomputable section

namespace Cert.KernelIdeal.Scale2

open Cert.KernelIdeal Cert.KernelIdeal.Gen Cert.KernelIdeal.GenP Cert.Spec
open Idealize.ShloMosaic Idealize.ShloMosaic.TcCoe Idealize.ShloMosaic.ValueIdx Idealize.SL.Sem
open Idealize.ShloMosaic.Pipeline (Dat)

theorem origin2 : (![0, 0] : Fin 2 → Nat) = fun _ => 0 := funext fun a => by fin_cases a <;> rfl

/-- The body's product at row `p`, column `q` of the block: the block's weight `(p, 0)` times the block's entry `(p, q)`. -/
theorem product_apply (x0 : Vec Ideal S8000x1 .f32) (x1 : Vec Ideal S8000x64 .f32) (p : Fin 8000) (q : Fin 64) :
    k2_pay1 (F := Ideal) x0 x1 (ix2 p q) = x0 (ix2 p (0 : Fin 1)) * x1 (ix2 p q) := by
  unfold k2_pay1
  rw [mulf_apply, shapeCast_self, shapeCast_self]
  exact congrArg (· * x1 (ix2 p q)) (Cert.Lib.broadcastTo_a1_ab_apply x0 broadcasts_S8000x1_S8000x64 p q)

/-- The printed index maps over the grid: every window's block index at point `t` is `(t, 0)`. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- At point `t`, row `p`, column `q`: the weight and the entry the body multiplies are the weight of row `8000 t + p` and
    the entry `(8000 t + p, q)` — where the output block's entry `(p, q)` lies —, for any two arrays. -/
theorem point_eq (A1 : S4000000x1.Idx → EReal) (A2 : S4000000x64.Idx → EReal) (t : Fin cfg2.N) (p : Fin 8000) (q : Fin 64) :
    A1 (((cfg2.win 0).blk t).view.emb (ix2 p (0 : Fin 1))) * A2 (((cfg2.win 1).blk t).view.emb (ix2 p q))
      = scaled A1 A2 (((cfg2.win 2).blk t).view.emb (ix2 p q)) := by
  obtain ⟨e00, e01, e10, e11, e20, e21⟩ := block_index t
  have ht : t.val < 500 := lt_of_lt_of_eq t.isLt N_2
  have hp : p.val < 8000 := p.isLt
  have h0 : ((cfg2.win 0).blk t).view.emb (ix2 p (0 : Fin 1)) = ix2 (⟨t.val * 8000 + p.val, by omega⟩ : Fin 4000000) (0 : Fin 1) := by
    funext a; apply Fin.ext
    match a with
    | ⟨0, _⟩ => show win2_0.index t (0 : Fin 2) * 8000 + 1 * p.val = t.val * 8000 + p.val; omega
    | ⟨1, _⟩ => show win2_0.index t (1 : Fin 2) * 1 + 1 * 0 = 0; omega
  have h1 : ((cfg2.win 1).blk t).view.emb (ix2 p q) = ix2 (⟨t.val * 8000 + p.val, by omega⟩ : Fin 4000000) q := by
    funext a; apply Fin.ext
    match a with
    | ⟨0, _⟩ => show win2_1.index t (0 : Fin 2) * 8000 + 1 * p.val = t.val * 8000 + p.val; omega
    | ⟨1, _⟩ => show win2_1.index t (1 : Fin 2) * 64 + 1 * q.val = q.val; omega
  have h2 : ((cfg2.win 2).blk t).view.emb (ix2 p q) = ix2 (⟨t.val * 8000 + p.val, by omega⟩ : Fin 4000000) q := by
    funext a; apply Fin.ext
    match a with
    | ⟨0, _⟩ => show win2_2.index t (0 : Fin 2) * 8000 + 1 * p.val = t.val * 8000 + p.val; omega
    | ⟨1, _⟩ => show win2_2.index t (1 : Fin 2) * 64 + 1 * q.val = q.val; omega
  rw [h0, h1, h2, scaled_apply]

variable (V : (c : Dev nD) → (b : Ref sig .tc) → Buf (Elt Ideal) ((c : Thread nD τ).loc b))

/-- What point `t` writes back is block `t` of `scaled` of the weight column and the gathered rows. -/
theorem written_back (c : Dev nD) (t : Fin cfg2.N) :
    (dat2 V c).flushed 2 t = ((cfg2.win 2).blk t).view.read (Elt Ideal) (scaled (V c main_v1) (V c main_v30)) := by
  show (cfg2.win 2).cut (grid2.coords t) ((dat2 V c).after 2 t) = _
  rw [after2_2]
  unfold out2_2
  rw [View.canon_unit_zero origin2]
  simp only [View.ld_unit_zero (S := S8000x1) origin2, View.ld_unit_zero (S := S8000x64) origin2]
  funext j
  obtain ⟨p, q, rfl⟩ : ∃ (p : Fin 8000) (q : Fin 64), j = ix2 p q := ⟨j 0, j 1, eq_ix2 j⟩
  refine (product_apply (iblk2 V c 0 t) (iblk2 V c 1 t) p q).trans ?_
  exact point_eq (V c main_v1) (V c main_v30) t p q

/-- An index of the output array is in point `t`'s block iff each coordinate is in the block's range on its axis. -/
theorem mem_block (t : Fin cfg2.N) (i : S4000000x64.Idx) :
    i ∈ ((cfg2.win 2).blk t).view.set ↔ ∀ a : Fin 2, win2_2.index t a * S8000x64.size a ≤ (i a).val ∧ (i a).val < win2_2.index t a * S8000x64.size a + S8000x64.size a := by
  show i ∈ ((View.whole main_v31).slice (win2_2.rect t)).set ↔ _
  rw [View.set_slice_whole, Rect.mem_set_unit]
  exact Iff.rfl

/-- Row `r` of the output lies in the block of point `r / 8000`: the 500 blocks tile the array. -/
theorem tiled (i : S4000000x64.Idx) :
    ∃ t : Fin cfg2.N, (cfg2.win 2).flush t = true ∧ i ∈ ((cfg2.win 2).blk t).view.set := by
  have hi0 : (i 0).val < 4000000 := (i 0).isLt
  have hi1 : (i 1).val < 64 := (i 1).isLt
  have hN : cfg2.N = 500 := N_2
  obtain ⟨t, htv⟩ : ∃ t : Fin cfg2.N, t.val = (i 0).val / 8000 := ⟨⟨(i 0).val / 8000, by rw [hN]; omega⟩, rfl⟩
  obtain ⟨-, -, -, -, e20, e21⟩ := block_index t
  refine ⟨t, flush2_2 t, ?_⟩
  rw [mem_block]
  intro a
  match a with
  | ⟨0, _⟩ => show win2_2.index t (0 : Fin 2) * 8000 ≤ (i 0).val ∧ (i 0).val < win2_2.index t (0 : Fin 2) * 8000 + 8000; omega
  | ⟨1, _⟩ => show win2_2.index t (1 : Fin 2) * 64 ≤ (i 1).val ∧ (i 1).val < win2_2.index t (1 : Fin 2) * 64 + 64; omega

/-- The output array after the region: every edge's gathered row times the edge's weight. -/
theorem value (c : Dev nD) : (dat2 V c).arrAt 2 cfg2.N = scaled (V c main_v1) (V c main_v30) :=
  (dat2 V c).arrAt_eq_of_cover 2 _ (fun t _ => written_back V c t) tiled

end Cert.KernelIdeal.Scale2

end
-- ==== Proof.Mean.lean ====
/-
  What the mean region leaves in its output array: the four layers summed from the left, times the word of `0.25`.

  The region runs over 30 grid points. Point `t` stages rows `5000 t … 5000 t + 4999` of each of the four layer arrays,
  adds them entry by entry in the order `((l0 + l1) + l2) + l3`, multiplies by the word of `0.25`, and writes the block back
  to the same rows of the output. What it writes back is block `t` of ONE array function, `pooled` of the four arrays as the
  region finds them, and the 30 blocks tile the 150,000 rows. Stated at any contents `V` of the buffers at the region's entry.
-/
import proofs.«145525_j73821897883700_2_alg».proof.Proof.FrameKI
import proofs.«145525_j73821897883700_2_alg».proof.Proof.Spec

set_option maxRecDepth 16384

noncomputable section

namespace Cert.KernelIdeal.Mean

open Cert.KernelIdeal Cert.KernelIdeal.Gen Cert.KernelIdeal.GenP Cert.Spec
open Idealize.ShloMosaic Idealize.ShloMosaic.TcCoe Idealize.ShloMosaic.ValueIdx Idealize.SL.Sem
open Idealize.ShloMosaic.Pipeline (Dat)

theorem origin2 : (![0, 0] : Fin 2 → Nat) = fun _ => 0 := funext fun a => by fin_cases a <;> rfl

/-- The body's value at an entry of the block: the four blocks' entries summed from the left, times the word of `0.25`. -/
theorem mean_apply (x0 x1 x2 x3 : Vec Ideal S5000x64 .f32) (j : S5000x64.Idx) :
    k3_pay1 (F := Ideal) x0 x1 x2 x3 j = (((x0 j + x1 j) + x2 j) + x3 j) * Ideal.ofBits .f32 0x3E800000#32 := by
  unfold k3_pay1
  rw [mulf_apply, addf_apply, addf_apply, addf_apply, shapeCast_self, shapeCast_self, shapeCast_self, shapeCast_self]
  rfl

/-- The printed index maps over the grid: every window's block index at point `t` is `(t, 0)`. -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- At point `t` the four input blocks and the output block lie on the same rows: entry `j` of each is the array's entry where
    the output block's entry `j` lies, for any four arrays. -/
theorem point_eq (A0 A1 A2 A3 : S150000x64.Idx → EReal) (t : Fin cfg3.N) (j : S5000x64.Idx) :
    (((A0 (((cfg3.win 0).blk t).view.emb j) + A1 (((cfg3.win 1).blk t).view.emb j)) + A2 (((cfg3.win 2).blk t).view.emb j))
        + A3 (((cfg3.win 3).blk t).view.emb j)) * Ideal.ofBits .f32 0x3E800000#32
      = pooled A0 A1 A2 A3 (((cfg3.win 4).blk t).view.emb j) := by
  obtain ⟨e00, e01, e10, e11, e20, e21, e30, e31, e40, e41⟩ := block_index t
  have h0 : ((cfg3.win 0).blk t).view.emb j = ((cfg3.win 4).blk t).view.emb j := by
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 64 + 1 * (j 1).val = win3_4.index t (1 : Fin 2) * 64 + 1 * (j 1).val; omega
  have h1 : ((cfg3.win 1).blk t).view.emb j = ((cfg3.win 4).blk t).view.emb j := by
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 64 + 1 * (j 1).val = win3_4.index t (1 : Fin 2) * 64 + 1 * (j 1).val; omega
  have h2 : ((cfg3.win 2).blk t).view.emb j = ((cfg3.win 4).blk t).view.emb j := by
    funext a; apply Fin.ext
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 64 + 1 * (j 1).val = win3_4.index t (1 : Fin 2) * 64 + 1 * (j 1).val; omega
  have h3 : ((cfg3.win 3).blk t).view.emb j = ((cfg3.win 4).blk t).view.emb j := by
    funext a; apply Fin.ext
    match a with
    | ⟨0, _⟩ => show win3_3.index t (0 : Fin 2) * 5000 + 1 * (j 0).val = win3_4.index t (0 : Fin 2) * 5000 + 1 * (j 0).val; omega
    | ⟨1, _⟩ => show win3_3.index t (1 : Fin 2) * 64 + 1 * (j 1).val = win3_4.index t (1 : Fin 2) * 64 + 1 * (j 1).val; omega
  rw [h0, h1, h2, h3]
  rfl

variable (V : (c : Dev nD) → (b : Ref sig .tc) → Buf (Elt Ideal) ((c : Thread nD τ).loc b))

/-- What point `t` writes back is block `t` of `pooled` of the four layer arrays. -/
theorem written_back (c : Dev nD) (t : Fin cfg3.N) :
    (dat3 V c).flushed 4 t = ((cfg3.win 4).blk t).view.read (Elt Ideal)
      (pooled (V c main_v0) (V c main_v12) (V c main_v23) (V c main_v34)) := by
  show (cfg3.win 4).cut (grid3.coords t) ((dat3 V c).after 4 t) = _
  rw [after3_4]
  unfold out3_4
  rw [View.canon_unit_zero origin2]
  simp only [View.ld_unit_zero (S := S5000x64) origin2]
  funext j
  refine (mean_apply (iblk3 V c 0 t) (iblk3 V c 1 t) (iblk3 V c 2 t) (iblk3 V c 3 t) j).trans ?_
  exact point_eq (V c main_v0) (V c main_v12) (V c main_v23) (V c main_v34) t j

/-- An index of the output array is in point `t`'s block iff each coordinate is in the block's range on its axis. -/
theorem mem_block (t : Fin cfg3.N) (i : S150000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v35).slice (win3_4.rect t)).set ↔ _
  rw [View.set_slice_whole, Rect.mem_set_unit]
  exact Iff.rfl

/-- Row `r` of the output lies in the block of point `r / 5000`: the 30 blocks tile the array. -/
theorem tiled (i : S150000x64.Idx) :
    ∃ t : Fin cfg3.N, (cfg3.win 4).flush t = true ∧ i ∈ ((cfg3.win 4).blk t).view.set := by
  have hi0 : (i 0).val < 150000 := (i 0).isLt
  have hi1 : (i 1).val < 64 := (i 1).isLt
  have hN : cfg3.N = 30 := N_3
  obtain ⟨t, htv⟩ : ∃ t : Fin cfg3.N, t.val = (i 0).val / 5000 := ⟨⟨(i 0).val / 5000, by rw [hN]; omega⟩, rfl⟩
  obtain ⟨-, -, -, -, -, -, -, -, e40, e41⟩ := block_index t
  refine ⟨t, flush3_4 t, ?_⟩
  rw [mem_block]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- The output array after the region: the mean of the four layers as the kernel spells it. -/
theorem value (c : Dev nD) :
    (dat3 V c).arrAt 4 cfg3.N = pooled (V c main_v0) (V c main_v12) (V c main_v23) (V c main_v34) :=
  (dat3 V c).arrAt_eq_of_cover 4 _ (fun t _ => written_back V c t) tiled

end Cert.KernelIdeal.Mean

end
-- ==== Proof.Dot.lean ====
/-
  What the dot region leaves in its output array: for every batch element the inner product of its two rows.

  The region runs over 4 grid points. Point `t` stages rows `1024 t … 1024 t + 1023` of the two gathered arrays,
  multiplies them entry by entry and sums each row's 64 products into a zero accumulator, and writes the 1024 sums back to
  entries `1024 t … 1024 t + 1023` of the output. What it writes back is block `t` of ONE array function, `dots` of the two
  arrays as the region finds them, and the 4 blocks tile the 4096 entries. Stated at any contents `V` at the region's entry.
-/
import proofs.«145525_j73821897883700_2_alg».proof.Proof.FrameKI
import proofs.«145525_j73821897883700_2_alg».proof.Proof.Spec
import proofs.«145525_j73821897883700_2_alg».proof.Proof.LibRowSum

set_option maxRecDepth 16384

noncomputable section

namespace Cert.KernelIdeal.Dot

open Cert.KernelIdeal Cert.KernelIdeal.Gen Cert.KernelIdeal.GenP Cert.Spec
open Idealize.ShloMosaic Idealize.ShloMosaic.TcCoe Idealize.ShloMosaic.ValueIdx Idealize.SL.Sem
open Idealize.ShloMosaic.Pipeline (Dat)
open scoped BigOperators

theorem origin2 : (![0, 0] : Fin 2 → Nat) = fun _ => 0 := funext fun a => by fin_cases a <;> rfl
theorem origin1 : (![0] : Fin 1 → Nat) = fun _ => 0 := funext fun a => by fin_cases a; rfl

/-- The body's value at entry `p` of the block: the sum over the 64 columns of the two blocks' products on row `p`. -/
theorem rowdot_apply (x0 x1 : Vec Ideal S1024x64 .f32) (p : Fin 1024) :
    k4_pay1 (F := Ideal) x0 x1 (ix1 p) = ∑ k : Fin 64, x0 (ix2 p k) * x1 (ix2 p k) := by
  unfold k4_pay1
  rw [shapeCast_self, shapeCast_self]
  exact Cert.Lib.multiReduction_add_rows (mulf (F := Ideal) (φ := .f32) x0 x1) _ reduces_S1024x64_S1024 (.inl rfl) rfl p

/-- The printed index maps over the grid: the inputs' block index at point `t` is `(t, 0)`, the output's is `(t)`. -/
theorem block_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 1) = t.val :=
  (by decide +kernel : ∀ t : Fin grid4.N, _)

/-- At point `t`, row `p`: the two rows the body multiplies and sums are row `1024 t + p` of each array, and entry `p` of
    the output block is entry `1024 t + p` of the output, for any two arrays. -/
theorem point_eq (A0 A1 : S4096x64.Idx → EReal) (t : Fin cfg4.N) (p : Fin 1024) :
    ∑ k : Fin 64, A0 (((cfg4.win 0).blk t).view.emb (ix2 p k)) * A1 (((cfg4.win 1).blk t).view.emb (ix2 p k))
      = dots A0 A1 (((cfg4.win 2).blk t).view.emb (ix1 p)) := by
  obtain ⟨e00, e01, e10, e11, e20⟩ := block_index t
  have ht : t.val < 4 := lt_of_lt_of_eq t.isLt N_4
  have hp : p.val < 1024 := p.isLt
  have h0 : ∀ k : Fin 64, ((cfg4.win 0).blk t).view.emb (ix2 p k) = ix2 (⟨t.val * 1024 + p.val, by omega⟩ : Fin 4096) k := by
    intro k; funext a; apply Fin.ext
    match a with
    | ⟨0, _⟩ => show win4_0.index t (0 : Fin 2) * 1024 + 1 * p.val = t.val * 1024 + p.val; omega
    | ⟨1, _⟩ => show win4_0.index t (1 : Fin 2) * 64 + 1 * k.val = k.val; omega
  have h1 : ∀ k : Fin 64, ((cfg4.win 1).blk t).view.emb (ix2 p k) = ix2 (⟨t.val * 1024 + p.val, by omega⟩ : Fin 4096) k := by
    intro k; funext a; apply Fin.ext
    match a with
    | ⟨0, _⟩ => show win4_1.index t (0 : Fin 2) * 1024 + 1 * p.val = t.val * 1024 + p.val; omega
    | ⟨1, _⟩ => show win4_1.index t (1 : Fin 2) * 64 + 1 * k.val = k.val; omega
  have h2 : ((cfg4.win 2).blk t).view.emb (ix1 p) = ix1 (⟨t.val * 1024 + p.val, by omega⟩ : Fin 4096) := by
    funext a; apply Fin.ext
    match a with
    | ⟨0, _⟩ => show win4_2.index t (0 : Fin 1) * 1024 + 1 * p.val = t.val * 1024 + p.val; omega
  rw [h2, dots_apply]
  exact Finset.sum_congr rfl fun k _ => by rw [h0 k, h1 k]

variable (V : (c : Dev nD) → (b : Ref sig .tc) → Buf (Elt Ideal) ((c : Thread nD τ).loc b))

/-- What point `t` writes back is block `t` of `dots` of the two gathered arrays. -/
theorem written_back (c : Dev nD) (t : Fin cfg4.N) :
    (dat4 V c).flushed 2 t = ((cfg4.win 2).blk t).view.read (Elt Ideal) (dots (V c main_v44) (V c main_v51)) := by
  show (cfg4.win 2).cut (grid4.coords t) ((dat4 V c).after 2 t) = _
  rw [after4_2]
  unfold out4_2
  rw [View.canon_unit_zero origin1]
  simp only [View.ld_unit_zero (S := S1024x64) origin2]
  funext j
  obtain ⟨p, rfl⟩ : ∃ p : Fin 1024, j = ix1 p := ⟨j 0, eq_ix1 j⟩
  refine (rowdot_apply (iblk4 V c 0 t) (iblk4 V c 1 t) p).trans ?_
  exact point_eq (V c main_v44) (V c main_v51) t p

/-- An index of the output array is in point `t`'s block iff its coordinate is in the block's range. -/
theorem mem_block (t : Fin cfg4.N) (i : S4096.Idx) :
    i ∈ ((cfg4.win 2).blk t).view.set ↔ ∀ a : Fin 1, win4_2.index t a * S1024.size a ≤ (i a).val ∧ (i a).val < win4_2.index t a * S1024.size a + S1024.size a := by
  show i ∈ ((View.whole main_v52).slice (win4_2.rect t)).set ↔ _
  rw [View.set_slice_whole, Rect.mem_set_unit]
  exact Iff.rfl

/-- Entry `r` of the output lies in the block of point `r / 1024`: the 4 blocks tile the array. -/
theorem tiled (i : S4096.Idx) :
    ∃ t : Fin cfg4.N, (cfg4.win 2).flush t = true ∧ i ∈ ((cfg4.win 2).blk t).view.set := by
  have hi0 : (i 0).val < 4096 := (i 0).isLt
  have hN : cfg4.N = 4 := N_4
  obtain ⟨t, htv⟩ : ∃ t : Fin cfg4.N, t.val = (i 0).val / 1024 := ⟨⟨(i 0).val / 1024, by rw [hN]; omega⟩, rfl⟩
  obtain ⟨-, -, -, -, e20⟩ := block_index t
  refine ⟨t, flush4_2 t, ?_⟩
  rw [mem_block]
  intro a
  match a with
  | ⟨0, _⟩ => show win4_2.index t (0 : Fin 1) * 1024 ≤ (i 0).val ∧ (i 0).val < win4_2.index t (0 : Fin 1) * 1024 + 1024; omega

/-- The output array after the region: the row-wise inner products of the two gathered arrays. -/
theorem value (c : Dev nD) : (dat4 V c).arrAt 2 cfg4.N = dots (V c main_v44) (V c main_v51) :=
  (dat4 V c).arrAt_eq_of_cover 2 _ (fun t _ => written_back V c t) tiled

end Cert.KernelIdeal.Dot

end
-- ==== Proof.Composed.lean ====
/-
  The result as ONE function of the seven argument arrays.

  `nodes` is the table of node rows, the users' rows above the items'. One round of propagation looks up, for every edge,
  the row of its source node (a negative index wrapped by the number of nodes), scales it by the edge's weight, and adds
  the scaled rows into the rows of the edges' target nodes, starting from zero. Three rounds give three more tables;
  `pool` is the mean of the four. The result pairs, for each of the 4096 batch elements, the pooled row of its user with
  the pooled row of its item (the item rows are the table's rows from 100000 on) and takes their inner product.
-/
import proofs.«145525_j73821897883700_2_alg».proof.KernelIdeal
import proofs.«145525_j73821897883700_2_alg».proof.Proof.Gen.KernelIdeal
import proofs.«145525_j73821897883700_2_alg».proof.Proof.Spec

noncomputable section

namespace Cert.KernelIdeal.Composed

open Cert.KernelIdeal Cert.KernelIdeal.Facts₀ Cert.Spec
open Idealize.ShloMosaic Idealize.ShloMosaic.TcCoe

variable (a0 : (⟨S100000x64, .f32⟩ : BufTy).Contents (Elt Ideal)) (a1 : (⟨S50000x64, .f32⟩ : BufTy).Contents (Elt Ideal))
  (a2 : (⟨S4000000, .f32⟩ : BufTy).Contents (Elt Ideal)) (a3 a4 : (⟨S4000000, .i32⟩ : BufTy).Contents (Elt Ideal))
  (a5 a6 : (⟨S4096, .i32⟩ : BufTy).Contents (Elt Ideal))

/-- The node table: the users' rows above the items'. -/
def nodes : (⟨S150000x64, .f32⟩ : BufTy).Contents (Elt Ideal) :=
  concatenate S150000x64 0 [⟨S100000x64, a0⟩, ⟨S50000x64, a1⟩] concatenates_S100000x64_S50000x64_S150000x64_d0

/-- The edge weights as a column. -/
def weights : (⟨S4000000x1, .f32⟩ : BufTy).Contents (Elt Ideal) :=
  broadcastInDim S4000000x1 ![0] bcast_S4000000_S4000000x1_0 a2

/-- Every edge's source node, a negative index wrapped by the 150000 nodes, as a column. -/
def sources : (⟨S4000000x1, .i32⟩ : BufTy).Contents (Elt Ideal) :=
  broadcastInDim S4000000x1 ![0] bcast_S4000000_S4000000x1_0
    (select (cmpi .slt a3 (broadcastInDim S4000000 ![] bcast_S_S4000000 (constantI S_ 32 0#32)))
      (addi a3 (broadcastInDim S4000000 ![] bcast_S_S4000000 (constantI S_ 32 150000#32))) a3)

/-- Every edge's target node, as a column. -/
def targets : (⟨S4000000x1, .i32⟩ : BufTy).Contents (Elt Ideal) :=
  broadcastInDim S4000000x1 ![0] bcast_S4000000_S4000000x1_0 a4

/-- One round: every edge's source row, scaled by the edge's weight, added into its target's row from zero. -/
def propagate (e : (⟨S150000x64, .f32⟩ : BufTy).Contents (Elt Ideal)) : (⟨S150000x64, .f32⟩ : BufTy).Contents (Elt Ideal) :=
  Host.scatterAdd scatter_S150000x64_S4000000x1_S4000000x64_1_0_0_1
    (broadcastInDim S150000x64 ![] bcast_S_S150000x64 (constant (F := Ideal) S_ .f32 0x00000000#32))
    (targets a4)
    (scaled (weights a2) (Host.gather gather_S150000x64_S4000000x1_S4000000x64_1_0_n_n_0_1_164 e (sources a3)))

/-- The tables after one, two and three rounds. -/
def layer1 : (⟨S150000x64, .f32⟩ : BufTy).Contents (Elt Ideal) := propagate a2 a3 a4 (nodes a0 a1)
def layer2 : (⟨S150000x64, .f32⟩ : BufTy).Contents (Elt Ideal) := propagate a2 a3 a4 (layer1 a0 a1 a2 a3 a4)
def layer3 : (⟨S150000x64, .f32⟩ : BufTy).Contents (Elt Ideal) := propagate a2 a3 a4 (layer2 a0 a1 a2 a3 a4)

/-- The mean of the four tables. -/
def pool : (⟨S150000x64, .f32⟩ : BufTy).Contents (Elt Ideal) :=
  pooled (nodes a0 a1) (layer1 a0 a1 a2 a3 a4) (layer2 a0 a1 a2 a3 a4) (layer3 a0 a1 a2 a3 a4)

/-- The pooled rows of the batch's users (a negative index wrapped by the 100000 users). -/
def userRows : (⟨S4096x64, .f32⟩ : BufTy).Contents (Elt Ideal) :=
  Host.gather gather_S100000x64_S4096x1_S4096x64_1_0_n_n_0_1_164
    (extractStridedSlice S100000x64 ![0, 0] (pool a0 a1 a2 a3 a4) slices_S150000x64_S100000x64_0_0)
    (broadcastInDim S4096x1 ![0] bcast_S4096_S4096x1_0
      (select (cmpi .slt a5 (broadcastInDim S4096 ![] bcast_S_S4096 (constantI S_ 32 0#32)))
        (addi a5 (broadcastInDim S4096 ![] bcast_S_S4096 (constantI S_ 32 100000#32))) a5))

/-- The pooled rows of the batch's items (a negative index wrapped by the 50000 items). -/
def itemRows : (⟨S4096x64, .f32⟩ : BufTy).Contents (Elt Ideal) :=
  Host.gather gather_S50000x64_S4096x1_S4096x64_1_0_n_n_0_1_164
    (extractStridedSlice S50000x64 ![100000, 0] (pool a0 a1 a2 a3 a4) slices_S150000x64_S50000x64_100000_0)
    (broadcastInDim S4096x1 ![0] bcast_S4096_S4096x1_0
      (select (cmpi .slt a6 (broadcastInDim S4096 ![] bcast_S_S4096 (constantI S_ 32 0#32)))
        (addi a6 (broadcastInDim S4096 ![] bcast_S_S4096 (constantI S_ 32 50000#32))) a6))

/-- For each batch element, the inner product of its user's and its item's pooled rows. -/
def result : (⟨S4096, .f32⟩ : BufTy).Contents (Elt Ideal) :=
  dots (userRows a0 a1 a2 a3 a4 a5) (itemRows a0 a1 a2 a3 a4 a6)

end Cert.KernelIdeal.Composed

end
-- ==== Proof.Levels.lean ====
/-
  The buffer contents at the ten boundaries of @main, read one boundary at a time.

  At the launch every buffer holds what the memory holds. A stretch of host operations leaves each buffer it writes at
  the operation's value of the buffers it reads, and every other buffer as it was; a region leaves each output array at
  the region's array function of its input arrays (the five region modules) and every other buffer as it was. Reading
  the ten boundaries in order, each table of node rows, each array of edge messages, the pooled table, the two
  gathered arrays and the result come out as the functions `nodes`, `layer1` … `result` of the seven argument arrays.
  A lemma's trailing number is the boundary it speaks of: 0 is the launch, 10 the return.
-/
import proofs.«145525_j73821897883700_2_alg».proof.Proof.FrameKI
import proofs.«145525_j73821897883700_2_alg».proof.Proof.Scale0
import proofs.«145525_j73821897883700_2_alg».proof.Proof.Scale1
import proofs.«145525_j73821897883700_2_alg».proof.Proof.Scale2
import proofs.«145525_j73821897883700_2_alg».proof.Proof.Mean
import proofs.«145525_j73821897883700_2_alg».proof.Proof.Dot
import proofs.«145525_j73821897883700_2_alg».proof.Proof.Composed
import Idealize.ShloMosaic.Lib.StableHlo.Run

set_option maxRecDepth 16384

noncomputable section

namespace Cert.KernelIdeal.Levels

open Cert.KernelIdeal Cert.KernelIdeal.Gen Cert.KernelIdeal.GenP
open Cert.Spec Cert.KernelIdeal.Composed
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The index and weight arguments, never written, at every boundary where they are read -/

theorem arg3_0 : W0 m ρ c (Proc.devRef .tc main_arg3) = (m ((c : Thread nD τ).loc main_arg3)) := rfl
theorem arg3_1 : W1 m ρ c (Proc.devRef .tc main_arg3) = (m ((c : Thread nD τ).loc main_arg3)) := by
  refine Eq.trans ?_ (arg3_0 m ρ c)
  show StableHlo.after hostOps0 (W0 m ρ c) (Proc.devRef .tc main_arg3) = W0 m ρ c (Proc.devRef .tc main_arg3)
  after_results <;> rfl
theorem arg3_2 : W2 m ρ c (Proc.devRef .tc main_arg3) = (m ((c : Thread nD τ).loc main_arg3)) :=
  (W2_of_ne m ρ c main_arg3 (by decide)).trans (arg3_1 m ρ c)
theorem arg3_3 : W3 m ρ c (Proc.devRef .tc main_arg3) = (m ((c : Thread nD τ).loc main_arg3)) := by
  refine Eq.trans ?_ (arg3_2 m ρ c)
  show StableHlo.after hostOps1 (W2 m ρ c) (Proc.devRef .tc main_arg3) = W2 m ρ c (Proc.devRef .tc main_arg3)
  after_results <;> rfl
theorem arg3_4 : W4 m ρ c (Proc.devRef .tc main_arg3) = (m ((c : Thread nD τ).loc main_arg3)) :=
  (W4_of_ne m ρ c main_arg3 (by decide)).trans (arg3_3 m ρ c)

theorem arg4_0 : W0 m ρ c (Proc.devRef .tc main_arg4) = (m ((c : Thread nD τ).loc main_arg4)) := rfl
theorem arg4_1 : W1 m ρ c (Proc.devRef .tc main_arg4) = (m ((c : Thread nD τ).loc main_arg4)) := by
  refine Eq.trans ?_ (arg4_0 m ρ c)
  show StableHlo.after hostOps0 (W0 m ρ c) (Proc.devRef .tc main_arg4) = W0 m ρ c (Proc.devRef .tc main_arg4)
  after_results <;> rfl
theorem arg4_2 : W2 m ρ c (Proc.devRef .tc main_arg4) = (m ((c : Thread nD τ).loc main_arg4)) :=
  (W2_of_ne m ρ c main_arg4 (by decide)).trans (arg4_1 m ρ c)
theorem arg4_3 : W3 m ρ c (Proc.devRef .tc main_arg4) = (m ((c : Thread nD τ).loc main_arg4)) := by
  refine Eq.trans ?_ (arg4_2 m ρ c)
  show StableHlo.after hostOps1 (W2 m ρ c) (Proc.devRef .tc main_arg4) = W2 m ρ c (Proc.devRef .tc main_arg4)
  after_results <;> rfl
theorem arg4_4 : W4 m ρ c (Proc.devRef .tc main_arg4) = (m ((c : Thread nD τ).loc main_arg4)) :=
  (W4_of_ne m ρ c main_arg4 (by decide)).trans (arg4_3 m ρ c)
theorem arg4_5 : W5 m ρ c (Proc.devRef .tc main_arg4) = (m ((c : Thread nD τ).loc main_arg4)) := by
  refine Eq.trans ?_ (arg4_4 m ρ c)
  show StableHlo.after hostOps2 (W4 m ρ c) (Proc.devRef .tc main_arg4) = W4 m ρ c (Proc.devRef .tc main_arg4)
  after_results <;> rfl
theorem arg4_6 : W6 m ρ c (Proc.devRef .tc main_arg4) = (m ((c : Thread nD τ).loc main_arg4)) :=
  (W6_of_ne m ρ c main_arg4 (by decide)).trans (arg4_5 m ρ c)

theorem arg5_0 : W0 m ρ c (Proc.devRef .tc main_arg5) = (m ((c : Thread nD τ).loc main_arg5)) := rfl
theorem arg5_1 : W1 m ρ c (Proc.devRef .tc main_arg5) = (m ((c : Thread nD τ).loc main_arg5)) := by
  refine Eq.trans ?_ (arg5_0 m ρ c)
  show StableHlo.after hostOps0 (W0 m ρ c) (Proc.devRef .tc main_arg5) = W0 m ρ c (Proc.devRef .tc main_arg5)
  after_results <;> rfl
theorem arg5_2 : W2 m ρ c (Proc.devRef .tc main_arg5) = (m ((c : Thread nD τ).loc main_arg5)) :=
  (W2_of_ne m ρ c main_arg5 (by decide)).trans (arg5_1 m ρ c)
theorem arg5_3 : W3 m ρ c (Proc.devRef .tc main_arg5) = (m ((c : Thread nD τ).loc main_arg5)) := by
  refine Eq.trans ?_ (arg5_2 m ρ c)
  show StableHlo.after hostOps1 (W2 m ρ c) (Proc.devRef .tc main_arg5) = W2 m ρ c (Proc.devRef .tc main_arg5)
  after_results <;> rfl
theorem arg5_4 : W4 m ρ c (Proc.devRef .tc main_arg5) = (m ((c : Thread nD τ).loc main_arg5)) :=
  (W4_of_ne m ρ c main_arg5 (by decide)).trans (arg5_3 m ρ c)
theorem arg5_5 : W5 m ρ c (Proc.devRef .tc main_arg5) = (m ((c : Thread nD τ).loc main_arg5)) := by
  refine Eq.trans ?_ (arg5_4 m ρ c)
  show StableHlo.after hostOps2 (W4 m ρ c) (Proc.devRef .tc main_arg5) = W4 m ρ c (Proc.devRef .tc main_arg5)
  after_results <;> rfl
theorem arg5_6 : W6 m ρ c (Proc.devRef .tc main_arg5) = (m ((c : Thread nD τ).loc main_arg5)) :=
  (W6_of_ne m ρ c main_arg5 (by decide)).trans (arg5_5 m ρ c)
theorem arg5_7 : W7 m ρ c (Proc.devRef .tc main_arg5) = (m ((c : Thread nD τ).loc main_arg5)) := by
  refine Eq.trans ?_ (arg5_6 m ρ c)
  show StableHlo.after hostOps3 (W6 m ρ c) (Proc.devRef .tc main_arg5) = W6 m ρ c (Proc.devRef .tc main_arg5)
  after_results <;> rfl
theorem arg5_8 : W8 m ρ c (Proc.devRef .tc main_arg5) = (m ((c : Thread nD τ).loc main_arg5)) :=
  (W8_of_ne m ρ c main_arg5 (by decide)).trans (arg5_7 m ρ c)

theorem arg6_0 : W0 m ρ c (Proc.devRef .tc main_arg6) = (m ((c : Thread nD τ).loc main_arg6)) := rfl
theorem arg6_1 : W1 m ρ c (Proc.devRef .tc main_arg6) = (m ((c : Thread nD τ).loc main_arg6)) := by
  refine Eq.trans ?_ (arg6_0 m ρ c)
  show StableHlo.after hostOps0 (W0 m ρ c) (Proc.devRef .tc main_arg6) = W0 m ρ c (Proc.devRef .tc main_arg6)
  after_results <;> rfl
theorem arg6_2 : W2 m ρ c (Proc.devRef .tc main_arg6) = (m ((c : Thread nD τ).loc main_arg6)) :=
  (W2_of_ne m ρ c main_arg6 (by decide)).trans (arg6_1 m ρ c)
theorem arg6_3 : W3 m ρ c (Proc.devRef .tc main_arg6) = (m ((c : Thread nD τ).loc main_arg6)) := by
  refine Eq.trans ?_ (arg6_2 m ρ c)
  show StableHlo.after hostOps1 (W2 m ρ c) (Proc.devRef .tc main_arg6) = W2 m ρ c (Proc.devRef .tc main_arg6)
  after_results <;> rfl
theorem arg6_4 : W4 m ρ c (Proc.devRef .tc main_arg6) = (m ((c : Thread nD τ).loc main_arg6)) :=
  (W4_of_ne m ρ c main_arg6 (by decide)).trans (arg6_3 m ρ c)
theorem arg6_5 : W5 m ρ c (Proc.devRef .tc main_arg6) = (m ((c : Thread nD τ).loc main_arg6)) := by
  refine Eq.trans ?_ (arg6_4 m ρ c)
  show StableHlo.after hostOps2 (W4 m ρ c) (Proc.devRef .tc main_arg6) = W4 m ρ c (Proc.devRef .tc main_arg6)
  after_results <;> rfl
theorem arg6_6 : W6 m ρ c (Proc.devRef .tc main_arg6) = (m ((c : Thread nD τ).loc main_arg6)) :=
  (W6_of_ne m ρ c main_arg6 (by decide)).trans (arg6_5 m ρ c)
theorem arg6_7 : W7 m ρ c (Proc.devRef .tc main_arg6) = (m ((c : Thread nD τ).loc main_arg6)) := by
  refine Eq.trans ?_ (arg6_6 m ρ c)
  show StableHlo.after hostOps3 (W6 m ρ c) (Proc.devRef .tc main_arg6) = W6 m ρ c (Proc.devRef .tc main_arg6)
  after_results <;> rfl
theorem arg6_8 : W8 m ρ c (Proc.devRef .tc main_arg6) = (m ((c : Thread nD τ).loc main_arg6)) :=
  (W8_of_ne m ρ c main_arg6 (by decide)).trans (arg6_7 m ρ c)

/-! ## Boundary 1: the node table, the weight column, the first gathered rows -/

theorem nodes_1 : W1 m ρ c (Proc.devRef .tc main_v0) = (nodes (m ((c : Thread nD τ).loc main_arg0)) (m ((c : Thread nD τ).loc main_arg1))) := by
  show StableHlo.after hostOps0 (W0 m ρ c) (Proc.devRef .tc main_v0) = _
  after_results <;> rfl
theorem weights_1 : W1 m ρ c (Proc.devRef .tc main_v1) = (weights (m ((c : Thread nD τ).loc main_arg2))) := by
  show StableHlo.after hostOps0 (W0 m ρ c) (Proc.devRef .tc main_v1) = _
  after_results <;> rfl
theorem gathered_1 : W1 m ρ c (Proc.devRef .tc main_v8) = Host.gather gather_S150000x64_S4000000x1_S4000000x64_1_0_n_n_0_1_164 (nodes (m ((c : Thread nD τ).loc main_arg0)) (m ((c : Thread nD τ).loc main_arg1))) (sources (m ((c : Thread nD τ).loc main_arg3))) := by
  show StableHlo.after hostOps0 (W0 m ρ c) (Proc.devRef .tc main_v8) = _
  after_results <;> rfl

/-! ## The node table and the weight column carried to where they are read again -/

theorem nodes_2 : W2 m ρ c (Proc.devRef .tc main_v0) = (nodes (m ((c : Thread nD τ).loc main_arg0)) (m ((c : Thread nD τ).loc main_arg1))) :=
  (W2_of_ne m ρ c main_v0 (by decide)).trans (nodes_1 m ρ c)
theorem nodes_3 : W3 m ρ c (Proc.devRef .tc main_v0) = (nodes (m ((c : Thread nD τ).loc main_arg0)) (m ((c : Thread nD τ).loc main_arg1))) := by
  refine Eq.trans ?_ (nodes_2 m ρ c)
  show StableHlo.after hostOps1 (W2 m ρ c) (Proc.devRef .tc main_v0) = W2 m ρ c (Proc.devRef .tc main_v0)
  after_results <;> rfl
theorem nodes_4 : W4 m ρ c (Proc.devRef .tc main_v0) = (nodes (m ((c : Thread nD τ).loc main_arg0)) (m ((c : Thread nD τ).loc main_arg1))) :=
  (W4_of_ne m ρ c main_v0 (by decide)).trans (nodes_3 m ρ c)
theorem nodes_5 : W5 m ρ c (Proc.devRef .tc main_v0) = (nodes (m ((c : Thread nD τ).loc main_arg0)) (m ((c : Thread nD τ).loc main_arg1))) := by
  refine Eq.trans ?_ (nodes_4 m ρ c)
  show StableHlo.after hostOps2 (W4 m ρ c) (Proc.devRef .tc main_v0) = W4 m ρ c (Proc.devRef .tc main_v0)
  after_results <;> rfl
theorem nodes_6 : W6 m ρ c (Proc.devRef .tc main_v0) = (nodes (m ((c : Thread nD τ).loc main_arg0)) (m ((c : Thread nD τ).loc main_arg1))) :=
  (W6_of_ne m ρ c main_v0 (by decide)).trans (nodes_5 m ρ c)
theorem nodes_7 : W7 m ρ c (Proc.devRef .tc main_v0) = (nodes (m ((c : Thread nD τ).loc main_arg0)) (m ((c : Thread nD τ).loc main_arg1))) := by
  refine Eq.trans ?_ (nodes_6 m ρ c)
  show StableHlo.after hostOps3 (W6 m ρ c) (Proc.devRef .tc main_v0) = W6 m ρ c (Proc.devRef .tc main_v0)
  after_results <;> rfl

theorem weights_2 : W2 m ρ c (Proc.devRef .tc main_v1) = (weights (m ((c : Thread nD τ).loc main_arg2))) :=
  ((W2_arr m ρ c 0).trans (((dat0 (V1 m ρ) c).arrAt_in 0 rfl cfg0.N).trans (A_eq0 (V1 m ρ) c 0))).trans (weights_1 m ρ c)
theorem weights_3 : W3 m ρ c (Proc.devRef .tc main_v1) = (weights (m ((c : Thread nD τ).loc main_arg2))) := by
  refine Eq.trans ?_ (weights_2 m ρ c)
  show StableHlo.after hostOps1 (W2 m ρ c) (Proc.devRef .tc main_v1) = W2 m ρ c (Proc.devRef .tc main_v1)
  after_results <;> rfl
theorem weights_4 : W4 m ρ c (Proc.devRef .tc main_v1) = (weights (m ((c : Thread nD τ).loc main_arg2))) :=
  ((W4_arr m ρ c 0).trans (((dat1 (V3 m ρ) c).arrAt_in 0 rfl cfg1.N).trans (A_eq1 (V3 m ρ) c 0))).trans (weights_3 m ρ c)
theorem weights_5 : W5 m ρ c (Proc.devRef .tc main_v1) = (weights (m ((c : Thread nD τ).loc main_arg2))) := by
  refine Eq.trans ?_ (weights_4 m ρ c)
  show StableHlo.after hostOps2 (W4 m ρ c) (Proc.devRef .tc main_v1) = W4 m ρ c (Proc.devRef .tc main_v1)
  after_results <;> rfl

/-! ## Boundary 2: the first edge messages -/

theorem messages_2 : W2 m ρ c (Proc.devRef .tc main_v9) = scaled (weights (m ((c : Thread nD τ).loc main_arg2))) (Host.gather gather_S150000x64_S4000000x1_S4000000x64_1_0_n_n_0_1_164 (nodes (m ((c : Thread nD τ).loc main_arg0)) (m ((c : Thread nD τ).loc main_arg1))) (sources (m ((c : Thread nD τ).loc main_arg3)))) :=
  ((W2_arr m ρ c 2).trans (Scale0.value (V1 m ρ) c)).trans (congrArg₂ scaled (weights_1 m ρ c) (gathered_1 m ρ c))

/-! ## Boundary 3: the table after one round, and its gathered rows -/

theorem layer1_3 : W3 m ρ c (Proc.devRef .tc main_v12) = (layer1 (m ((c : Thread nD τ).loc main_arg0)) (m ((c : Thread nD τ).loc main_arg1)) (m ((c : Thread nD τ).loc main_arg2)) (m ((c : Thread nD τ).loc main_arg3)) (m ((c : Thread nD τ).loc main_arg4))) := by
  have h : W3 m ρ c (Proc.devRef .tc main_v12) = (Host.scatterAdd scatter_S150000x64_S4000000x1_S4000000x64_1_0_0_1 (broadcastInDim S150000x64 ![] Facts₀.bcast_S_S150000x64 (constant (F := Ideal) S_ .f32 0x00000000#32)) (broadcastInDim S4000000x1 ![0] Facts₀.bcast_S4000000_S4000000x1_0 (W2 m ρ c (Proc.devRef .tc main_arg4))) (W2 m ρ c (Proc.devRef .tc main_v9))) := by
    show StableHlo.after hostOps1 (W2 m ρ c) (Proc.devRef .tc main_v12) = _
    after_results <;> rfl
  rw [h, arg4_2, messages_2]; rfl
theorem gathered_3 : W3 m ρ c (Proc.devRef .tc main_v19) = Host.gather gather_S150000x64_S4000000x1_S4000000x64_1_0_n_n_0_1_164 (layer1 (m ((c : Thread nD τ).loc main_arg0)) (m ((c : Thread nD τ).loc main_arg1)) (m ((c : Thread nD τ).loc main_arg2)) (m ((c : Thread nD τ).loc main_arg3)) (m ((c : Thread nD τ).loc main_arg4))) (sources (m ((c : Thread nD τ).loc main_arg3))) := by
  have h : W3 m ρ c (Proc.devRef .tc main_v19) = Host.gather gather_S150000x64_S4000000x1_S4000000x64_1_0_n_n_0_1_164 (Host.scatterAdd scatter_S150000x64_S4000000x1_S4000000x64_1_0_0_1 (broadcastInDim S150000x64 ![] Facts₀.bcast_S_S150000x64 (constant (F := Ideal) S_ .f32 0x00000000#32)) (broadcastInDim S4000000x1 ![0] Facts₀.bcast_S4000000_S4000000x1_0 (W2 m ρ c (Proc.devRef .tc main_arg4))) (W2 m ρ c (Proc.devRef .tc main_v9))) (broadcastInDim S4000000x1 ![0] Facts₀.bcast_S4000000_S4000000x1_0 (select (cmpi .slt (W2 m ρ c (Proc.devRef .tc main_arg3)) (broadcastInDim S4000000 ![] Facts₀.bcast_S_S4000000 (constantI S_ 32 0#32))) (addi (W2 m ρ c (Proc.devRef .tc main_arg3)) (broadcastInDim S4000000 ![] Facts₀.bcast_S_S4000000 (constantI S_ 32 150000#32))) (W2 m ρ c (Proc.devRef .tc main_arg3)))) := by
    show StableHlo.after hostOps1 (W2 m ρ c) (Proc.devRef .tc main_v19) = _
    after_results <;> rfl
  rw [h, arg4_2, arg3_2, messages_2]; rfl

theorem layer1_4 : W4 m ρ c (Proc.devRef .tc main_v12) = (layer1 (m ((c : Thread nD τ).loc main_arg0)) (m ((c : Thread nD τ).loc main_arg1)) (m ((c : Thread nD τ).loc main_arg2)) (m ((c : Thread nD τ).loc main_arg3)) (m ((c : Thread nD τ).loc main_arg4))) :=
  (W4_of_ne m ρ c main_v12 (by decide)).trans (layer1_3 m ρ c)
theorem layer1_5 : W5 m ρ c (Proc.devRef .tc main_v12) = (layer1 (m ((c : Thread nD τ).loc main_arg0)) (m ((c : Thread nD τ).loc main_arg1)) (m ((c : Thread nD τ).loc main_arg2)) (m ((c : Thread nD τ).loc main_arg3)) (m ((c : Thread nD τ).loc main_arg4))) := by
  refine Eq.trans ?_ (layer1_4 m ρ c)
  show StableHlo.after hostOps2 (W4 m ρ c) (Proc.devRef .tc main_v12) = W4 m ρ c (Proc.devRef .tc main_v12)
  after_results <;> rfl
theorem layer1_6 : W6 m ρ c (Proc.devRef .tc main_v12) = (layer1 (m ((c : Thread nD τ).loc main_arg0)) (m ((c : Thread nD τ).loc main_arg1)) (m ((c : Thread nD τ).loc main_arg2)) (m ((c : Thread nD τ).loc main_arg3)) (m ((c : Thread nD τ).loc main_arg4))) :=
  (W6_of_ne m ρ c main_v12 (by decide)).trans (layer1_5 m ρ c)
theorem layer1_7 : W7 m ρ c (Proc.devRef .tc main_v12) = (layer1 (m ((c : Thread nD τ).loc main_arg0)) (m ((c : Thread nD τ).loc main_arg1)) (m ((c : Thread nD τ).loc main_arg2)) (m ((c : Thread nD τ).loc main_arg3)) (m ((c : Thread nD τ).loc main_arg4))) := by
  refine Eq.trans ?_ (layer1_6 m ρ c)
  show StableHlo.after hostOps3 (W6 m ρ c) (Proc.devRef .tc main_v12) = W6 m ρ c (Proc.devRef .tc main_v12)
  after_results <;> rfl

/-! ## Boundary 4: the second edge messages -/

theorem messages_4 : W4 m ρ c (Proc.devRef .tc main_v20) = scaled (weights (m ((c : Thread nD τ).loc main_arg2))) (Host.gather gather_S150000x64_S4000000x1_S4000000x64_1_0_n_n_0_1_164 (layer1 (m ((c : Thread nD τ).loc main_arg0)) (m ((c : Thread nD τ).loc main_arg1)) (m ((c : Thread nD τ).loc main_arg2)) (m ((c : Thread nD τ).loc main_arg3)) (m ((c : Thread nD τ).loc main_arg4))) (sources (m ((c : Thread nD τ).loc main_arg3)))) :=
  ((W4_arr m ρ c 2).trans (Scale1.value (V3 m ρ) c)).trans (congrArg₂ scaled (weights_3 m ρ c) (gathered_3 m ρ c))

/-! ## Boundary 5: the table after two rounds, and its gathered rows -/

theorem layer2_5 : W5 m ρ c (Proc.devRef .tc main_v23) = (layer2 (m ((c : Thread nD τ).loc main_arg0)) (m ((c : Thread nD τ).loc main_arg1)) (m ((c : Thread nD τ).loc main_arg2)) (m ((c : Thread nD τ).loc main_arg3)) (m ((c : Thread nD τ).loc main_arg4))) := by
  have h : W5 m ρ c (Proc.devRef .tc main_v23) = (Host.scatterAdd scatter_S150000x64_S4000000x1_S4000000x64_1_0_0_1 (broadcastInDim S150000x64 ![] Facts₀.bcast_S_S150000x64 (constant (F := Ideal) S_ .f32 0x00000000#32)) (broadcastInDim S4000000x1 ![0] Facts₀.bcast_S4000000_S4000000x1_0 (W4 m ρ c (Proc.devRef .tc main_arg4))) (W4 m ρ c (Proc.devRef .tc main_v20))) := by
    show StableHlo.after hostOps2 (W4 m ρ c) (Proc.devRef .tc main_v23) = _
    after_results <;> rfl
  rw [h, arg4_4, messages_4]; rfl
theorem gathered_5 : W5 m ρ c (Proc.devRef .tc main_v30) = Host.gather gather_S150000x64_S4000000x1_S4000000x64_1_0_n_n_0_1_164 (layer2 (m ((c : Thread nD τ).loc main_arg0)) (m ((c : Thread nD τ).loc main_arg1)) (m ((c : Thread nD τ).loc main_arg2)) (m ((c : Thread nD τ).loc main_arg3)) (m ((c : Thread nD τ).loc main_arg4))) (sources (m ((c : Thread nD τ).loc main_arg3))) := by
  have h : W5 m ρ c (Proc.devRef .tc main_v30) = Host.gather gather_S150000x64_S4000000x1_S4000000x64_1_0_n_n_0_1_164 (Host.scatterAdd scatter_S150000x64_S4000000x1_S4000000x64_1_0_0_1 (broadcastInDim S150000x64 ![] Facts₀.bcast_S_S150000x64 (constant (F := Ideal) S_ .f32 0x00000000#32)) (broadcastInDim S4000000x1 ![0] Facts₀.bcast_S4000000_S4000000x1_0 (W4 m ρ c (Proc.devRef .tc main_arg4))) (W4 m ρ c (Proc.devRef .tc main_v20))) (broadcastInDim S4000000x1 ![0] Facts₀.bcast_S4000000_S4000000x1_0 (select (cmpi .slt (W4 m ρ c (Proc.devRef .tc main_arg3)) (broadcastInDim S4000000 ![] Facts₀.bcast_S_S4000000 (constantI S_ 32 0#32))) (addi (W4 m ρ c (Proc.devRef .tc main_arg3)) (broadcastInDim S4000000 ![] Facts₀.bcast_S_S4000000 (constantI S_ 32 150000#32))) (W4 m ρ c (Proc.devRef .tc main_arg3)))) := by
    show StableHlo.after hostOps2 (W4 m ρ c) (Proc.devRef .tc main_v30) = _
    after_results <;> rfl
  rw [h, arg4_4, arg3_4, messages_4]; rfl

theorem layer2_6 : W6 m ρ c (Proc.devRef .tc main_v23) = (layer2 (m ((c : Thread nD τ).loc main_arg0)) (m ((c : Thread nD τ).loc main_arg1)) (m ((c : Thread nD τ).loc main_arg2)) (m ((c : Thread nD τ).loc main_arg3)) (m ((c : Thread nD τ).loc main_arg4))) :=
  (W6_of_ne m ρ c main_v23 (by decide)).trans (layer2_5 m ρ c)
theorem layer2_7 : W7 m ρ c (Proc.devRef .tc main_v23) = (layer2 (m ((c : Thread nD τ).loc main_arg0)) (m ((c : Thread nD τ).loc main_arg1)) (m ((c : Thread nD τ).loc main_arg2)) (m ((c : Thread nD τ).loc main_arg3)) (m ((c : Thread nD τ).loc main_arg4))) := by
  refine Eq.trans ?_ (layer2_6 m ρ c)
  show StableHlo.after hostOps3 (W6 m ρ c) (Proc.devRef .tc main_v23) = W6 m ρ c (Proc.devRef .tc main_v23)
  after_results <;> rfl

/-! ## Boundary 6: the third edge messages -/

theorem messages_6 : W6 m ρ c (Proc.devRef .tc main_v31) = scaled (weights (m ((c : Thread nD τ).loc main_arg2))) (Host.gather gather_S150000x64_S4000000x1_S4000000x64_1_0_n_n_0_1_164 (layer2 (m ((c : Thread nD τ).loc main_arg0)) (m ((c : Thread nD τ).loc main_arg1)) (m ((c : Thread nD τ).loc main_arg2)) (m ((c : Thread nD τ).loc main_arg3)) (m ((c : Thread nD τ).loc main_arg4))) (sources (m ((c : Thread nD τ).loc main_arg3)))) :=
  ((W6_arr m ρ c 2).trans (Scale2.value (V5 m ρ) c)).trans (congrArg₂ scaled (weights_5 m ρ c) (gathered_5 m ρ c))

/-! ## Boundary 7: the table after three rounds -/

theorem layer3_7 : W7 m ρ c (Proc.devRef .tc main_v34) = (layer3 (m ((c : Thread nD τ).loc main_arg0)) (m ((c : Thread nD τ).loc main_arg1)) (m ((c : Thread nD τ).loc main_arg2)) (m ((c : Thread nD τ).loc main_arg3)) (m ((c : Thread nD τ).loc main_arg4))) := by
  have h : W7 m ρ c (Proc.devRef .tc main_v34) = (Host.scatterAdd scatter_S150000x64_S4000000x1_S4000000x64_1_0_0_1 (broadcastInDim S150000x64 ![] Facts₀.bcast_S_S150000x64 (constant (F := Ideal) S_ .f32 0x00000000#32)) (broadcastInDim S4000000x1 ![0] Facts₀.bcast_S4000000_S4000000x1_0 (W6 m ρ c (Proc.devRef .tc main_arg4))) (W6 m ρ c (Proc.devRef .tc main_v31))) := by
    show StableHlo.after hostOps3 (W6 m ρ c) (Proc.devRef .tc main_v34) = _
    after_results <;> rfl
  rw [h, arg4_6, messages_6]; rfl

/-! ## Boundary 8: the pooled table -/

theorem pool_8 : W8 m ρ c (Proc.devRef .tc main_v35) = (pool (m ((c : Thread nD τ).loc main_arg0)) (m ((c : Thread nD τ).loc main_arg1)) (m ((c : Thread nD τ).loc main_arg2)) (m ((c : Thread nD τ).loc main_arg3)) (m ((c : Thread nD τ).loc main_arg4))) :=
  ((W8_arr m ρ c 4).trans (Mean.value (V7 m ρ) c)).trans
    (by rw [show V7 m ρ c main_v0 = W7 m ρ c (Proc.devRef .tc main_v0) from rfl, show V7 m ρ c main_v12 = W7 m ρ c (Proc.devRef .tc main_v12) from rfl,
          show V7 m ρ c main_v23 = W7 m ρ c (Proc.devRef .tc main_v23) from rfl, show V7 m ρ c main_v34 = W7 m ρ c (Proc.devRef .tc main_v34) from rfl,
          nodes_7, layer1_7, layer2_7, layer3_7]; rfl)

/-! ## Boundary 9: the users' and the items' pooled rows -/

theorem users_9 : W9 m ρ c (Proc.devRef .tc main_v44) = userRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h : W9 m ρ c (Proc.devRef .tc main_v44) = Host.gather gather_S100000x64_S4096x1_S4096x64_1_0_n_n_0_1_164
      (extractStridedSlice S100000x64 ![0, 0] (W8 m ρ c (Proc.devRef .tc main_v35)) Facts₀.slices_S150000x64_S100000x64_0_0)
      (broadcastInDim S4096x1 ![0] Facts₀.bcast_S4096_S4096x1_0
        (select (cmpi .slt (W8 m ρ c (Proc.devRef .tc main_arg5)) (broadcastInDim S4096 ![] Facts₀.bcast_S_S4096 (constantI S_ 32 0#32)))
          (addi (W8 m ρ c (Proc.devRef .tc main_arg5)) (broadcastInDim S4096 ![] Facts₀.bcast_S_S4096 (constantI S_ 32 100000#32))) (W8 m ρ c (Proc.devRef .tc main_arg5)))) := by
    show StableHlo.after hostOps4 (W8 m ρ c) (Proc.devRef .tc main_v44) = _
    after_results <;> rfl
  rw [h, arg5_8, pool_8]; rfl
set_option maxHeartbeats 4000000 in
theorem items_9 : W9 m ρ c (Proc.devRef .tc main_v51) = itemRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  have h : W9 m ρ c (Proc.devRef .tc main_v51) = Host.gather gather_S50000x64_S4096x1_S4096x64_1_0_n_n_0_1_164
      (extractStridedSlice S50000x64 ![100000, 0] (W8 m ρ c (Proc.devRef .tc main_v35)) Facts₀.slices_S150000x64_S50000x64_100000_0)
      (broadcastInDim S4096x1 ![0] Facts₀.bcast_S4096_S4096x1_0
        (select (cmpi .slt (W8 m ρ c (Proc.devRef .tc main_arg6)) (broadcastInDim S4096 ![] Facts₀.bcast_S_S4096 (constantI S_ 32 0#32)))
          (addi (W8 m ρ c (Proc.devRef .tc main_arg6)) (broadcastInDim S4096 ![] Facts₀.bcast_S_S4096 (constantI S_ 32 50000#32))) (W8 m ρ c (Proc.devRef .tc main_arg6)))) := by
    show StableHlo.after hostOps4 (W8 m ρ c) (Proc.devRef .tc main_v51) = _
    after_results <;> rfl
  rw [h, arg6_8, pool_8]; rfl

/-! ## Boundary 10: the result -/

/-- The result array at the return is `result` of the seven argument arrays as launched. -/
theorem result_10 : W10 m ρ c (Proc.devRef .tc main_v52)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((W10_arr m ρ c 2).trans (Dot.value (V9 m ρ) c)).trans (congrArg₂ dots (users_9 m ρ c) (items_9 m ρ c))

end Cert.KernelIdeal.Levels

end
-- ==== Proof.Bridge.lean ====
/-
  The reference computes the same function of the seven argument arrays.

  The reference, read one operation at a time, differs from `result` in three places only. It spells each round's edge
  messages as the weight column broadcast over the 64 columns times the gathered rows, which is `scaled`; it divides the
  sum of the four tables by the word of `4.0` where the kernel multiplies by the word of `0.25`, which is `pooled` (the
  same extended real at every entry, infinite ones included); and it sums each row's 64 products from the zero word,
  which is `dots`. Everywhere else the two are the same operations of the same arrays — the same table of node rows, the
  same wrapped indices, the same look-ups and the same additions into target rows — so each stage of the reference is the
  corresponding piece of `Composed`, in the order the reference computes them.
-/
import proofs.«145525_j73821897883700_2_alg».proof.Proof.Composed
import proofs.«145525_j73821897883700_2_alg».proof.Proof.Gen.ReferenceIdeal.Read

set_option maxRecDepth 16384

noncomputable section

namespace Cert.Bridge

open Cert.Spec Cert.ReferenceIdeal.Read Cert.KernelIdeal.Composed
open Idealize.ShloMosaic Idealize.ShloMosaic.TcCoe Idealize.SL.Sem

variable (x0 : (⟨Cert.ReferenceIdeal.S100000x64, .f32⟩ : BufTy).Contents (Elt Ideal)) (x1 : (⟨Cert.ReferenceIdeal.S50000x64, .f32⟩ : BufTy).Contents (Elt Ideal))
  (x2 : (⟨Cert.ReferenceIdeal.S4000000, .f32⟩ : BufTy).Contents (Elt Ideal)) (x3 x4 : (⟨Cert.ReferenceIdeal.S4000000, .i32⟩ : BufTy).Contents (Elt Ideal))
  (x5 x6 : (⟨Cert.ReferenceIdeal.S4096, .i32⟩ : BufTy).Contents (Elt Ideal))

/-! ## Round one -/

/-- The first gathered rows: the node table looked up at the wrapped source indices. -/
theorem gathered1 : val_main_v8 (F := Ideal) x0 x1 x3
    = Host.gather Cert.KernelIdeal.gather_S150000x64_S4000000x1_S4000000x64_1_0_n_n_0_1_164 (nodes x0 x1) (sources x3) := rfl

/-- The first edge messages: the broadcast weights times the gathered rows are the rows scaled by their weights. -/
theorem messages1 : val_main_v10 (F := Ideal) x0 x1 x2 x3
    = scaled (weights x2) (Host.gather Cert.KernelIdeal.gather_S150000x64_S4000000x1_S4000000x64_1_0_n_n_0_1_164 (nodes x0 x1) (sources x3)) :=
  (scaled_eq_host _ (val_main_v1 (F := Ideal) x2) (val_main_v8 (F := Ideal) x0 x1 x3)).trans (by rw [gathered1]; rfl)

/-- The table after one round. -/
theorem table1 : val_main_v13 (F := Ideal) x0 x1 x2 x3 x4 = layer1 x0 x1 x2 x3 x4 := by
  unfold val_main_v13; rw [messages1]; rfl

/-! ## Round two -/

theorem gathered2 : val_main_v22 (F := Ideal) x0 x1 x2 x3 x4
    = Host.gather Cert.KernelIdeal.gather_S150000x64_S4000000x1_S4000000x64_1_0_n_n_0_1_164 (layer1 x0 x1 x2 x3 x4) (sources x3) := by
  unfold val_main_v22; rw [table1]; rfl

theorem messages2 : val_main_v24 (F := Ideal) x0 x1 x2 x3 x4
    = scaled (weights x2) (Host.gather Cert.KernelIdeal.gather_S150000x64_S4000000x1_S4000000x64_1_0_n_n_0_1_164 (layer1 x0 x1 x2 x3 x4) (sources x3)) :=
  (scaled_eq_host _ (val_main_v15 (F := Ideal) x2) (val_main_v22 (F := Ideal) x0 x1 x2 x3 x4)).trans (by rw [gathered2]; rfl)

/-- The table after two rounds. -/
theorem table2 : val_main_v27 (F := Ideal) x0 x1 x2 x3 x4 = layer2 x0 x1 x2 x3 x4 := by
  unfold val_main_v27; rw [messages2]; rfl

/-! ## Round three -/

theorem gathered3 : val_main_v36 (F := Ideal) x0 x1 x2 x3 x4
    = Host.gather Cert.KernelIdeal.gather_S150000x64_S4000000x1_S4000000x64_1_0_n_n_0_1_164 (layer2 x0 x1 x2 x3 x4) (sources x3) := by
  unfold val_main_v36; rw [table2]; rfl

theorem messages3 : val_main_v38 (F := Ideal) x0 x1 x2 x3 x4
    = scaled (weights x2) (Host.gather Cert.KernelIdeal.gather_S150000x64_S4000000x1_S4000000x64_1_0_n_n_0_1_164 (layer2 x0 x1 x2 x3 x4) (sources x3)) :=
  (scaled_eq_host _ (val_main_v29 (F := Ideal) x2) (val_main_v36 (F := Ideal) x0 x1 x2 x3 x4)).trans (by rw [gathered3]; rfl)

/-- The table after three rounds. -/
theorem table3 : val_main_v41 (F := Ideal) x0 x1 x2 x3 x4 = layer3 x0 x1 x2 x3 x4 := by
  unfold val_main_v41; rw [messages3]; rfl

/-! ## The mean, the batch's rows, the inner products -/

/-- The sum of the four tables divided by the word of `4.0` is the pooled table. -/
theorem pooledTable : val_main_v44 (F := Ideal) x0 x1 x2 x3 x4 = pool x0 x1 x2 x3 x4 :=
  (pooled_eq_host _ (val_main_v0 (F := Ideal) x0 x1) (val_main_v13 (F := Ideal) x0 x1 x2 x3 x4) (val_main_v27 (F := Ideal) x0 x1 x2 x3 x4)
    (val_main_v41 (F := Ideal) x0 x1 x2 x3 x4)).trans (by rw [table1, table2, table3]; rfl)

theorem users : val_main_v53 (F := Ideal) x0 x1 x2 x3 x4 x5 = userRows x0 x1 x2 x3 x4 x5 := by
  unfold val_main_v53 val_main_v45; rw [pooledTable]; rfl

theorem items : val_main_v60 (F := Ideal) x0 x1 x2 x3 x4 x6 = itemRows x0 x1 x2 x3 x4 x6 := by
  unfold val_main_v60 val_main_v46; rw [pooledTable]; rfl

/-- The reference's last stage is `result`: the pointwise products summed along each row from the zero word are the
    row-wise inner products. -/
theorem last_stage : val_main_v62 (F := Ideal) x0 x1 x2 x3 x4 x5 x6 = result x0 x1 x2 x3 x4 x5 x6 :=
  (dots_eq_host _ _ (val_main_v53 (F := Ideal) x0 x1 x2 x3 x4 x5) (val_main_v60 (F := Ideal) x0 x1 x2 x3 x4 x6)).trans (by rw [users, items]; rfl)

/-- The reference's result term is `result` of the arguments it is run from. -/
theorem reference_result (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v62 (F := Ideal) m' c
      = result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) :=
  (val_main_v62_eq (F := Ideal) m' c).trans (last_stage _ _ _ _ _ _ _)

end Cert.Bridge

end
-- ==== Proof.lean ====
/-
  The certificate of a three-round graph propagation scored on a batch of (user, item) pairs.

  Both programs build the table of node rows (users above items); three times over they look up every edge's source row,
  scale it by the edge's weight and add it into the edge's target row; they average the four tables; and for each of the
  4096 batch elements they take the inner product of its user's and its item's averaged rows. The kernel does the scaling,
  the averaging and the inner products in five kernel regions (the look-ups and the additions into target rows stay host
  operations); the reference is host operations throughout.

  On the extended reals the two results are equal entry by entry, with no finiteness needed anywhere: a region's output
  array is one array function of its input arrays (Proof/Scale0–2, Mean, Dot: what each grid point writes back is a
  block of that function, and the blocks tile the array); the buffer contents at @main's ten boundaries, read in order,
  make the kernel's result `Composed.result` of the seven arguments (Proof/Levels over the run of Proof/RunNamed); and
  the reference's composed term is the same function (Proof/Bridge): its three spellings — broadcast-and-multiply, divide
  by 4 instead of multiply by 1/4, a row sum from the zero word — are shown equal to the kernel's in Proof/Spec.
  The idealization rewrote no operation, so its ledger has no entry to restate. The frames of the two kernel programs are
  the generated frame certificates; the reference's frame is its generated run with the result dropped.
-/
import proofs.«145525_j73821897883700_2_alg».proof.Defs
import proofs.«145525_j73821897883700_2_alg».proof.Proof.Gen.Kernel
import proofs.«145525_j73821897883700_2_alg».proof.Proof.FrameK
import proofs.«145525_j73821897883700_2_alg».proof.Proof.Gen.KernelIdeal
import proofs.«145525_j73821897883700_2_alg».proof.Proof.FrameKI
import proofs.«145525_j73821897883700_2_alg».proof.Proof.Gen.ReferenceIdeal
import proofs.«145525_j73821897883700_2_alg».proof.Proof.Gen.ReferenceIdeal.Run
import proofs.«145525_j73821897883700_2_alg».proof.Proof.Gen.Pre_finite_inputs
import proofs.«145525_j73821897883700_2_alg».proof.Proof.RunNamed
import proofs.«145525_j73821897883700_2_alg».proof.Proof.Levels
import proofs.«145525_j73821897883700_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Run from memories that agree on the seven arguments, both programs end with the result array at `Composed.result` of
    those arguments: the kernel by the boundary contents read in order, the reference by its composed term. -/
theorem algebraic : Cert.algebraic_KernelIdeal_ReferenceIdeal := by
  intro m ρ m' ρ' _ hagree
  refine ⟨fun c => Cert.KernelIdeal.Composed.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Levels.result_10 m ρ c), (h c).2⟩)
      (Cert.KernelIdeal.RunValue.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.Bridge.reference_result, (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
